-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x64 : S_.BroadcastsInDim S128x64 (![] : Fin 0 → Fin S128x64.rank)
  reducesTo_S128x64_S_d0_1 : S128x64.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v14 : FVec F S8192 .f32) (main_v15 : FVec F S8192 .f32) : IVec S_ 1 :=
  let main_v16 : IVec S8192 1 := cmpf .ogt main_v14 main_v15
  let main_c_6 : IVec S_ 1 := constantI S_ 1 1#1
  let main_v17 : IVec S_ 1 := (fun x v => Host.reduce IntOp.andi x v reducesTo_S8192_S_d0 h_S_) main_v16 main_c_6
  let main_v18 : IVec S_ 1 := andi main_v13 main_v17
  main_v18

def fn {F : FTy → Type} [FloatOps F] (main_arg0 : FVec F S8192x128 .f32) (main_arg1 : FVec F S8192x8192 .f32) (main_arg2 : FVec F S128x64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_cst_4 : FVec F S_ .f32 := constant S_ .f32 0x00000000#32
  let main_v14 : FVec F S8192 .f32 := (fun x v => Host.reduceAdd x v reducesTo_S8192x8192_S8192_d1 h_S_) main_arg1 main_cst_4
  let main_cst_5 : FVec F S_ .f32 := constant S_ .f32 0x00000000#32
  let main_v15 : FVec F S8192 .f32 := broadcastInDim S8192 ![] bcast_S_S8192 main_cst_5
  fn_part1 (F := F) main_v13 main_v14 main_v15
-- ==== Kernel.lean ====
abbrev S8192x128 : Shape := ⟨2, ![8192, 128]⟩
abbrev S8192x8192 : Shape := ⟨2, ![8192, 8192]⟩
abbrev S128x64 : Shape := ⟨2, ![128, 64]⟩
abbrev S8192x1 : Shape := ⟨2, ![8192, 1]⟩
abbrev S1024x4096 : Shape := ⟨2, ![1024, 4096]⟩
abbrev S1024x1 : Shape := ⟨2, ![1024, 1]⟩
abbrev S1024 : Shape := ⟨1, ![1024]⟩
abbrev S8192x64 : Shape := ⟨2, ![8192, 64]⟩
abbrev S1024x2048 : Shape := ⟨2, ![1024, 2048]⟩
abbrev S1024x64 : Shape := ⟨2, ![1024, 64]⟩
abbrev S1024x128 : Shape := ⟨2, ![1024, 128]⟩
abbrev S2048x128 : Shape := ⟨2, ![2048, 128]⟩

abbrev nBuf : Space → Nat
  | .hbm => 7
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S8192x1, .f32⟩
  | .hbm, ⟨4, _⟩ => ⟨S8192x128, .f32⟩
  | .hbm, ⟨5, _⟩ => ⟨S8192x128, .f32⟩
  | .hbm, ⟨6, _⟩ => ⟨S8192x64, .f32⟩
  | .local _ .vmem, ⟨0, _⟩ => ⟨S1024x4096, .f32⟩
  | .local _ .vmem, ⟨1, _⟩ => ⟨S1024x4096, .f32⟩
  | .local _ .vmem, ⟨2, _⟩ => ⟨S1024x1, .f32⟩
  | .local _ .vmem, ⟨3, _⟩ => ⟨S1024x1, .f32⟩
  | .local _ .vmem, ⟨4, _⟩ => ⟨S1024x2048, .f32⟩
  | .local _ .vmem, ⟨5, _⟩ => ⟨S1024x2048, .f32⟩
  | .local _ .vmem, ⟨6, _⟩ => ⟨S8192x128, .f32⟩
  | .local _ .vmem, ⟨7, _⟩ => ⟨S1024x1, .f32⟩
  | .local _ .vmem, ⟨8, _⟩ => ⟨S1024x1, .f32⟩
  | .local _ .vmem, ⟨9, _⟩ => ⟨S128x64, .f32⟩
  | .local _ .vmem, ⟨10, _⟩ => ⟨S1024x64, .f32⟩
  | .local _ .vmem, ⟨11, _⟩ => ⟨S1024x64, .f32⟩
  | .local _ .vmem, ⟨12, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  bcast_S8192x1_S8192x128_0_1 : S8192x1.BroadcastsInDim S8192x128 (![0, 1] : Fin 2 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  broadcasts_S1024x1_S1024x128 : S1024x1.Broadcasts S1024x128
  inb_S128x64_S128x64_0_0 : ∀ a, (![0, 0] : Fin 2 → Nat) a + S128x64.size a ≤ S128x64.size a
  h_S128x64 : 0 < S128x64.numel
  inb_S1024x64_S1024x64_0_0 : ∀ a, (![0, 0] : Fin 2 → Nat) a + S1024x64.size a ≤ S1024x64.size a
  h_S1024x64 : 0 < S1024x64.numel
  dot_S1024x2048_S2048x128_S1024x128_1_0_0_1_n_n_wf : DotDims.WF S1024x2048 S2048x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x8192.size a
  hwx0_0 : ∀ i : grid0.Coords, EltTy.bits .f32 = 32 ∨ (Rect.block (s := S8192x8192) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x128, .f32⟩
  | .hbm, ⟨16, _⟩ => ⟨S8192x64, .f32⟩
  | .hbm, ⟨17, _⟩ => ⟨S_, .f32⟩
  | .hbm, ⟨18, _⟩ => ⟨S8192x64, .f32⟩
  | .hbm, ⟨19, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x64 : S_.BroadcastsInDim S8192x64 (![] : Fin 0 → Fin S8192x64.rank)
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.K.R0RunA.lean ====
/-
  The degree kernel runs on a grid of 8 row blocks by 2 column halves; the point t = 2 i + k handles the
  1024 x 4096 block (i, k) of the adjacency array and keeps a 1024 x 1 column for row block i.  Its two
  conditionals look only at the column coordinate k: the first (k = 0) resets the column to zero, the second
  (k = 1) turns the accumulated column into guarded reciprocal square roots.  So the grid meets two cases:
  the even points (reset, then add the half-row sums) and the odd points (add the half-row sums to what the
  even point left, then finish).

  This module states the two conditions, decides them over the 16 points in closed form, and runs the body
  in the first case: on an input block x0 and ANY previous contents of the column buffer, the body ends with
  the column buffer written by a list of stores, which the run itself produces.
-/
import proofs.«179531_j47261820125198_2_alg».proof.Proof.Gen.Kernel.Launch
import proofs.«179531_j47261820125198_2_alg».proof.Proof.Gen.Kernel.Skeleton
import proofs.«179531_j47261820125198_2_alg».proof.Proof.Gen.Kernel.Points
import Idealize.ShloMosaic.Lib.Pipeline.FrameBody
import Idealize.ShloMosaic.Lib.Ring
import Idealize.ShloMosaic.Lib.Tactic

-- membership of an index in a rectangle with an axis of several thousand entries is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the degree kernel, from the grid coordinates -/

/-- "The column coordinate is 0": the scalar chain the body computes before its first conditional. -/
abbrev cond0_0 (i : grid0.Coords) : Prop :=
  (Scalar.cmpi .ne (Scalar.extui (Scalar.cmpi .eq (BitVec.ofNat 32 (i 1).val) 0#32)) 0#32) = 1#1
/-- It holds exactly at the even points (t = 2 i + k with k = 0). -/
theorem hcond0_0 : ∀ t : Fin cfg0.N, cond0_0 (grid0.coords t) ↔ t.val % 2 = 0 :=
  (by decide +kernel : ∀ t : Fin grid0.N, cond0_0 (grid0.coords t) ↔ t.val % 2 = 0)

/-- "The column coordinate is 1": the scalar chain before the second conditional. -/
abbrev cond0_1 (i : grid0.Coords) : Prop :=
  (Scalar.cmpi .ne (Scalar.extui (Scalar.cmpi .eq (BitVec.ofNat 32 (i 1).val) 1#32)) 0#32) = 1#1
/-- It holds exactly at the odd points (k = 1). -/
theorem hcond0_1 : ∀ t : Fin cfg0.N, cond0_1 (grid0.coords t) ↔ t.val % 2 = 1 :=
  (by decide +kernel : ∀ t : Fin grid0.N, cond0_1 (grid0.coords t) ↔ t.val % 2 = 1)

/-! ## The column buffer through one fixed view -/

/-- One of the two staging buffers of the column window, through which the column's contents are stated: reading
    back a list of stores that covers the buffer does not depend on the buffer chosen. -/
abbrev VO0_1 : View sig .tc .vmem S1024x1 .f32 := (Memref.whole cc0_stg1_0 : Memref sig .tc .vmem S1024x1 .f32).view

/-- The staging memref each window is on at point t, and its wholeness. -/
abbrev ms0_0 (t : Fin cfg0.N) : Memref sig .tc .vmem S1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)

/-! ## The body at an even point -/

set_option maxHeartbeats 1000000 in
/-- At a point with k = 0 (first conditional taken, second not): with the input buffer at the block x0 and the
    column buffer at anything, the body returns the input buffer as it was and the column buffer written by the
    stores L1 (last first) — the reset and the accumulation —, L1 being what the run of the body produces. -/
noncomputable def kernelRun0_A (c : Dev nD) (i : grid0.Coords) (arg2 : Memref sig .tc .vmem S1024x4096 .f32) (harg2 : arg2.IsWhole)
    (arg3 : Memref sig .tc .vmem S1024x1 .f32) (harg3 : arg3.IsWhole) (hc0 : cond0_0 i) (hc1 : ¬cond0_1 i)
    (x0 : Vec F S1024x4096 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.Kernel.Hand

end
-- ==== Proof.K.R0RunB.lean ====
/-
  The degree kernel at an odd point (column half k = 1): the reset is skipped, the half-row sums of the input
  block are added to the column the even point before left, and the last conditional replaces the column by
  the guarded reciprocal square roots.  On an input block x0 and previous column contents xo1 the body ends
  with the column buffer written by a list of stores which the run itself produces.
-/
import proofs.«179531_j47261820125198_2_alg».proof.Proof.K.R0RunA

-- membership of an index in a rectangle with an axis of several thousand entries is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 (first conditional not taken, second taken): with the input buffer at the block x0
    and the column buffer at xo1, the body returns the input buffer as it was and the column buffer written by
    the stores L1 (last first) — the accumulation and the final guarded reciprocal square root. -/
noncomputable def kernelRun0_B (c : Dev nD) (i : grid0.Coords) (arg2 : Memref sig .tc .vmem S1024x4096 .f32) (harg2 : arg2.IsWhole)
    (arg3 : Memref sig .tc .vmem S1024x1 .f32) (harg3 : arg3.IsWhole) (hc0 : ¬cond0_0 i) (hc1 : cond0_1 i)
    (x0 : Vec F S1024x4096 .f32) (xo1 : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Hand

end
-- ==== Proof.K.R0Frame.lean ====
/-
  The degree region as the pipeline sees it, at any contents V of the core's buffers when the region is entered.

  The grid has 16 points t = 2 i + k.  Window 0 is the 1024 x 4096 block (i, k) of the adjacency array, fetched at
  every point; window 1 is the 1024 x 1 column of row block i, whose block index does not move from an even point
  to the odd point after it and which is written back at the odd points only.  So the column an even point leaves —
  zero plus the half-row sums of its block — is what the odd point after it finds, adds its own half-row sums to and
  turns into guarded reciprocal square roots.

  This module defines what the column buffer holds after each point by recursion on the point (outsAt0), states it
  through the body's named values (outsAt0_even, outsAt0_odd), gives the pipeline's proof data (dat0) and proves the
  body obligation from the two runs of the body.
-/
import proofs.«179531_j47261820125198_2_alg».proof.Proof.K.R0RunB
import Idealize.ShloMosaic.Lib.Pipeline.Value

-- membership of an index in a rectangle with an axis of several thousand entries is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    V's and whose body leaves the block in place: the window is fetched whole (never clipped, never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Which case a point is in -/

theorem cond0_0_of_even (t : Fin cfg0.N) (h : t.val % 2 = 0) : cond0_0 (grid0.coords t) := (hcond0_0 t).mpr h
theorem not_cond0_1_of_even (t : Fin cfg0.N) (h : t.val % 2 = 0) : ¬cond0_1 (grid0.coords t) :=
  fun hc => by have := (hcond0_1 t).mp hc; omega
theorem not_cond0_0_of_odd (t : Fin cfg0.N) (h : t.val % 2 = 1) : ¬cond0_0 (grid0.coords t) :=
  fun hc => by have := (hcond0_0 t).mp hc; omega
theorem cond0_1_of_odd (t : Fin cfg0.N) (h : t.val % 2 = 1) : cond0_1 (grid0.coords t) := (hcond0_1 t).mpr h

/-! ## What each case leaves in the column buffer -/

theorem hz2 : (![0, 0] : Fin 2 → Nat) = fun _ => 0 := funext fun a => by fin_cases a <;> rfl

/-- The stores of an even point tile the column (two stores of the whole 1024 x 1 block), so they cover it. -/
theorem cover0_A_1 (c : Dev nD) (i : grid0.Coords) (arg2 : Memref sig .tc .vmem S1024x4096 .f32) (harg2 : arg2.IsWhole)
    (arg3 : Memref sig .tc .vmem S1024x1 .f32) (harg3 : arg3.IsWhole) (hc0 : cond0_0 i) (hc1 : ¬cond0_1 i)
    (x0 : Vec F S1024x4096 .f32) (y : S1024x1.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1024x1.size (by sl_kernel_rfl) y

/-- What an even point leaves in the column buffer: its stores read back. -/
def out0_A_1 (c : Dev nD) (i : grid0.Coords) (arg2 : Memref sig .tc .vmem S1024x4096 .f32) (harg2 : arg2.IsWhole)
    (arg3 : Memref sig .tc .vmem S1024x1 .f32) (harg3 : arg3.IsWhole) (hc0 : cond0_0 i) (hc1 : ¬cond0_1 i)
    (x0 : Vec F S1024x4096 .f32) : Vec F S1024x1 .f32 :=
  VO0_1.read (Elt F) (VO0_1.writes (Elt F) VO0_1.junk (kernelRun0_A c i arg2 harg2 arg3 harg3 hc0 hc1 x0).1)

/-- The stores of an odd point tile the column, so they cover it. -/
theorem cover0_B_1 (c : Dev nD) (i : grid0.Coords) (arg2 : Memref sig .tc .vmem S1024x4096 .f32) (harg2 : arg2.IsWhole)
    (arg3 : Memref sig .tc .vmem S1024x1 .f32) (harg3 : arg3.IsWhole) (hc0 : ¬cond0_0 i) (hc1 : cond0_1 i)
    (x0 : Vec F S1024x4096 .f32) (xo1 : Vec F S1024x1 .f32) (y : S1024x1.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S1024x1.size (by sl_kernel_rfl) y

/-- What an odd point leaves in the column buffer: its stores read back. -/
def out0_B_1 (c : Dev nD) (i : grid0.Coords) (arg2 : Memref sig .tc .vmem S1024x4096 .f32) (harg2 : arg2.IsWhole)
    (arg3 : Memref sig .tc .vmem S1024x1 .f32) (harg3 : arg3.IsWhole) (hc0 : ¬cond0_0 i) (hc1 : cond0_1 i)
    (x0 : Vec F S1024x4096 .f32) (xo1 : Vec F S1024x1 .f32) : Vec F S1024x1 .f32 :=
  VO0_1.read (Elt F) (VO0_1.writes (Elt F) VO0_1.junk (kernelRun0_B c i arg2 harg2 arg3 harg3 hc0 hc1 x0 xo1).1)

/-- An even point leaves the half-row sums of its block added to the zero column: the reset is stored, read back
    whole, and the sum stored over it. -/
theorem out0_A_1_eq (c : Dev nD) (i : grid0.Coords) (arg2 : Memref sig .tc .vmem S1024x4096 .f32) (harg2 : arg2.IsWhole)
    (arg3 : Memref sig .tc .vmem S1024x1 .f32) (harg3 : arg3.IsWhole) (hc0 : cond0_0 i) (hc1 : ¬cond0_1 i)
    (x0 : Vec F S1024x4096 .f32) :
    out0_A_1 c i arg2 harg2 arg3 harg3 hc0 hc1 x0 = k0_pay2 (k0_pay1 (F := F)) x0 := by
  unfold out0_A_1
  rw [View.read_writes_eq_canon _ _ _ (cover0_A_1 c i arg2 harg2 arg3 harg3 hc0 hc1 x0)]
  unfold kernelRun0_A
  dsimp only
  sl_unfold_words
  rw [View.canon_cons_unit_zero (S := S1024x1) hz2, View.readCov_unit_zero (S := S1024x1) _ hz2]
  simp only [View.readAt_eq_ld, harg2.read_unread, View.ld_unit_zero (S := S1024x4096) hz2]

/-- An odd point leaves the guarded reciprocal square root of the column it found plus the half-row sums of its
    block: the sum is stored, read back whole, and the result stored over it. -/
theorem out0_B_1_eq (c : Dev nD) (i : grid0.Coords) (arg2 : Memref sig .tc .vmem S1024x4096 .f32) (harg2 : arg2.IsWhole)
    (arg3 : Memref sig .tc .vmem S1024x1 .f32) (harg3 : arg3.IsWhole) (hc0 : ¬cond0_0 i) (hc1 : cond0_1 i)
    (x0 : Vec F S1024x4096 .f32) (xo1 : Vec F S1024x1 .f32) :
    out0_B_1 c i arg2 harg2 arg3 harg3 hc0 hc1 x0 xo1 = k0_pay3 (k0_pay2 xo1 x0) := by
  unfold out0_B_1
  rw [View.read_writes_eq_canon _ _ _ (cover0_B_1 c i arg2 harg2 arg3 harg3 hc0 hc1 x0 xo1)]
  unfold kernelRun0_B
  dsimp only
  sl_unfold_words
  rw [View.canon_cons_unit_zero (S := S1024x1) hz2, View.readCov_unit_zero (S := S1024x1) _ hz2]
  simp only [View.readAt_eq_ld, harg2.read_unread, harg3.read_unread, View.ld_unit_zero (S := S1024x4096) hz2,
    View.ld_unit_zero (S := S1024x1) hz2]

/-! ## What the column buffer holds after each point -/

/-- The even case at point t, run at the point's memrefs and input block. -/
def outA (c : Dev nD) (t : Fin cfg0.N) (h : t.val % 2 = 0) : Vec F S1024x1 .f32 :=
  out0_A_1 c (grid0.coords t) (ms0_0 t) (hs0_0 t) (ms0_1 t) (hs0_1 t) (cond0_0_of_even t h) (not_cond0_1_of_even t h) (iblk0 V c 0 t)

/-- The odd case at point t, over the column xo the point before left. -/
def outB (c : Dev nD) (t : Fin cfg0.N) (h : t.val % 2 = 1) (xo : Vec F S1024x1 .f32) : Vec F S1024x1 .f32 :=
  out0_B_1 c (grid0.coords t) (ms0_0 t) (hs0_0 t) (ms0_1 t) (hs0_1 t) (not_cond0_0_of_odd t h) (cond0_1_of_odd t h) (iblk0 V c 0 t) xo

/-- What output window 1's staging buffer holds after the body at position n: at an even position the even case on
    the point's block, at an odd position the odd case over what position n - 1 left (the column is not written
    back in between and its block index does not move). -/
def outsAt0 (c : Dev nD) : (n : ℕ) → n < cfg0.N → Vec F S1024x1 .f32
  | 0, hn => outA V c ⟨0, hn⟩ (Nat.zero_mod 2)
  | n + 1, hn =>
    if h0 : (n + 1) % 2 = 0 then outA V c ⟨n + 1, hn⟩ h0
    else outB V c ⟨n + 1, hn⟩ (Nat.mod_two_ne_zero.mp h0) (outsAt0 c n (Nat.lt_of_succ_lt hn))

theorem outsAt0_A (c : Dev nD) (t : Fin cfg0.N) (h : t.val % 2 = 0) : outsAt0 V c t.val t.isLt = outA V c t h := by
  obtain ⟨n, hn⟩ := t
  cases n with
  | zero => exact rfl
  | succ n => exact (dif_pos h).trans rfl

theorem outsAt0_B (c : Dev nD) (t : Fin cfg0.N) (h : t.val % 2 = 1) :
    outsAt0 V c t.val t.isLt = outB V c t h (outsAt0 V c (t.val - 1) (Nat.lt_of_le_of_lt (Nat.sub_le _ _) t.isLt)) := by
  obtain ⟨n, hn⟩ := t
  cases n with
  | zero => exact absurd (show (0 : ℕ) % 2 = 1 from h) (by decide)
  | succ n => exact (dif_neg (fun h0 => by have h' : (n + 1) % 2 = 1 := h; omega)).trans rfl

/-- After an even point the column is the zero column plus the half-row sums of the point's block. -/
theorem outsAt0_even (c : Dev nD) (t : Fin cfg0.N) (h : t.val % 2 = 0) :
    outsAt0 V c t.val t.isLt = k0_pay2 (k0_pay1 (F := F)) (iblk0 V c 0 t) := by
  rw [outsAt0_A V c t h]; unfold outA
  exact out0_A_1_eq c (grid0.coords t) (ms0_0 t) (hs0_0 t) (ms0_1 t) (hs0_1 t) (cond0_0_of_even t h) (not_cond0_1_of_even t h) (iblk0 V c 0 t)

/-- After an odd point the column is the guarded reciprocal square root of what the even point before left plus
    the half-row sums of the point's block. -/
theorem outsAt0_odd (c : Dev nD) (t : Fin cfg0.N) (h : t.val % 2 = 1) :
    outsAt0 V c t.val t.isLt = k0_pay3 (k0_pay2 (outsAt0 V c (t.val - 1) (by omega)) (iblk0 V c 0 t)) := by
  rw [outsAt0_B V c t h]; unfold outB
  exact out0_B_1_eq c (grid0.coords t) (ms0_0 t) (hs0_0 t) (ms0_1 t) (hs0_1 t) (not_cond0_0_of_odd t h) (cond0_1_of_odd t h) (iblk0 V c 0 t) _

/-! ## The pipeline's proof data -/

/-- The proof data of the degree pipeline on core c: the arrays as the region finds them; after the body at point
    t the input's buffer at its block and the column's at outsAt0; the invariant is the scoped rest and the
    generator register, which the body does not touch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = outsAt0 V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At an odd point the column's current staging buffer holds what the body left at the even point before: the
    point is not the first and the column was not written back in between. -/
theorem before0_1_odd (c : Dev nD) (t : Fin cfg0.N) (h : t.val % 2 = 1) (d) :
    (dat0 V c).before 1 t d = outsAt0 V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun hf => by have := (flush0_1 _).mp hf; dsimp only at this; omega)
    (fun _ => rfl) (fun _ _ => rfl)]
  dsimp only [dat0]

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the point's parity says which case it is in; at an
    odd point the column holds what the even point before left; so that case's run applies; the invariant passes
    through unread and nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 2 = 0
  · rw [outsAt0_A V c t h0]
    unfold outA out0_A_1
    iintro ⟨HΦ, Ho, ⟨%d0, H0⟩, ⟨%d1, H1⟩⟩
    iapply ((kernelRun0_A c (grid0.coords t) _ _ _ _ (cond0_0_of_even t h0) (not_cond0_1_of_even t h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · have h1 : t.val % 2 = 1 := Nat.mod_two_ne_zero.mp h0
    rw [outsAt0_B V c t h1]
    simp only [before0_1_odd V c t h1]
    unfold outB out0_B_1
    iintro ⟨HΦ, Ho, ⟨%d0, H0⟩, ⟨%d1, H1⟩⟩
    iapply ((kernelRun0_B c (grid0.coords t) _ _ _ _ (not_cond0_0_of_odd t h1) (cond0_1_of_odd t h1) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
import proofs.«179531_j47261820125198_2_alg».proof.Proof.Gen.Kernel.Launch
import proofs.«179531_j47261820125198_2_alg».proof.Proof.Gen.Kernel.Skeleton
import proofs.«179531_j47261820125198_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (pipeline 1): what its three cases share

The grid is 8 x 4, point `t = 4 i + k`. At `k = 0` the accumulator is zeroed and then receives the first
partial product; at `k = 1, 2` it receives one more; at `k = 3` it receives the last one and the output block
is computed from it. Everything is stated at a parameter `V`: the buffer contents when the region is entered. -/

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The first condition (`k = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (`k = 3`). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where `k ≠ 3` nothing is stored into the output's buffer and it is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- Where `k = 3` the output's buffer is stored into. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x64 .f32 := (Memref.whole cc1_stg4_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S1024x128 .f32 := Memref.whole cc1_scratch0
abbrev VS1_0 : View sig .tc .vmem S1024x128 .f32 := scM1_0.view

/-- The rectangle of the slice of the scaled features the body loads at grid coordinates `i`:
    rows `2048 k` to `2048 k + 2047`, all 128 columns. -/
abbrev rX1 (i : grid1.Coords) : Rect S8192x128 := Rect.unit (s := S8192x128) (k1_off1 i) S2048x128.size (k1_off1_inb i)

/-- The region's invariant with the accumulator as a memref owned at some contents; the other pallas_call's staging
    buffers are each whole at some contents and pass through untouched. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.R1RunA.lean ====
import proofs.«179531_j47261820125198_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at `k = 0`

The accumulator, whatever it held, is zeroed and then receives the first partial product; the output's buffer is
handed back as found. The pieces the accumulator ends with are the witness the symbolic run finds. -/

set_option maxHeartbeats 4000000 in
noncomputable def kernelRun1_A (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S8192x128 .f32) (x2 : Vec F S1024x1 .f32) (x3 : Vec F S128x64 .f32) :
    Σ' (L4 : List (View.Piece (Elt F) S1024x64 .f32)), { LS0 : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R1RunB.lean ====
import proofs.«179531_j47261820125198_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at `k = 1, 2`

The accumulator, at what the point before left in it, receives one more partial product; the output's buffer is
handed back as found. -/

set_option maxHeartbeats 4000000 in
noncomputable def kernelRun1_B (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S8192x128 .f32) (x2 : Vec F S1024x1 .f32) (x3 : Vec F S128x64 .f32) (xs0 : Vec F S1024x128 .f32) :
    Σ' (L4 : List (View.Piece (Elt F) S1024x64 .f32)), { LS0 : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R1RunC.lean ====
import proofs.«179531_j47261820125198_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at `k = 3`

The accumulator receives the last partial product, and the output's buffer, whatever it held, is stored whole:
the accumulated product scaled row by row, multiplied by the weights and clamped below at zero. -/

set_option maxHeartbeats 4000000 in
noncomputable def kernelRun1_C (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) :
    Σ' (L4 : List (View.Piece (Elt F) S1024x64 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R1Frame.lean ====
import proofs.«179531_j47261820125198_2_alg».proof.Proof.K.R1RunA
import proofs.«179531_j47261820125198_2_alg».proof.Proof.K.R1RunB
import proofs.«179531_j47261820125198_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (pipeline 1): proof data and body obligation

Stated at a parameter `V`, the buffer contents when the region is entered. -/

variable (V : (c : Dev nD) → (b : Ref sig .tc) → Buf (Elt F) ((c : Thread nD τ).loc b))

/-- At these points nothing is stored into the output's buffer: no pieces, and a placeholder value that nothing consults
    (the window is idle there and not written back). -/
def out1_A_4 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S8192x128 .f32) (x2 : Vec F S1024x1 .f32) (x3 : Vec F S128x64 .f32) : Vec F S1024x64 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- The stores into the accumulator cover it. -/
theorem scover1_A_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S8192x128 .f32) (x2 : Vec F S1024x1 .f32) (x3 : Vec F S128x64 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What the accumulator holds after the body: its pieces read back. -/
def sout1_A_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S8192x128 .f32) (x2 : Vec F S1024x1 .f32) (x3 : Vec F S128x64 .f32) : Vec F S1024x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- At these points nothing is stored into the output's buffer: no pieces, and a placeholder value that nothing consults
    (the window is idle there and not written back). -/
def out1_B_4 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S8192x128 .f32) (x2 : Vec F S1024x1 .f32) (x3 : Vec F S128x64 .f32) (xs0 : Vec F S1024x128 .f32) : Vec F S1024x64 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- The stores into the accumulator cover it. -/
theorem scover1_B_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S8192x128 .f32) (x2 : Vec F S1024x1 .f32) (x3 : Vec F S128x64 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What the accumulator holds after the body: its pieces read back. -/
def sout1_B_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S8192x128 .f32) (x2 : Vec F S1024x1 .f32) (x3 : Vec F S128x64 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- The one store into the output's buffer covers it. -/
theorem cover1_C_4 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) (y : S1024x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x64.size (by sl_kernel_rfl) y

/-- What the output's buffer holds after the body: its pieces read back. -/
def out1_C_4 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) : Vec F S1024x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- The stores into the accumulator cover it. -/
theorem scover1_C_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What the accumulator holds after the body: its pieces read back. -/
def sout1_C_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output's buffer and the accumulator hold after each point -/

/-- After the body at position `n`: (the output window's staging buffer, the accumulator). The closed forms select the
    case; a case that reads the accumulator takes it at what position `n - 1` left. -/
def outsAt1 (c : Dev nD) : (n : ℕ) → n < cfg1.N → Vec F S1024x64 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, tracking the accumulator -/

/-- Before position `n`: before the first point, what the launch hands the region; afterwards the other pallas_call's
    staging buffers at some contents, the accumulator at what position `n - 1` left, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' buffers hold their blocks; the closed forms of the two conditions say which of
    the three cases the point is in; the invariant hands the body the accumulator (at anything before the first point,
    afterwards at what the point before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HA, HB, HC, HD, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V c t, PhiS1_pos V c _ _ hz]
      ·
        iintro ⟨⟨⟨HA, HB, HC, HD, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      ·
        iintro ⟨⟨⟨HA, HB, HC, HD, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.Main.lean ====
/-
  The whole program as one run: the degree region, the host scaling of the features, the layer region.

  Each region's proof data says what its windows' arrays hold after its write-backs; between the regions a core's
  unscoped buffers are a fold from the launch memory. The run ends with every unscoped buffer at the last fold, from
  which the frame (each argument array as launched) is read here, and the result array's value elsewhere.
-/
import proofs.«179531_j47261820125198_2_alg».proof.Proof.K.R0Frame
import proofs.«179531_j47261820125198_2_alg».proof.Proof.K.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: the degree region, the host scaling of the features, the layer region

The contents of a core's unscoped buffers at each boundary of @main are a fold from the launch memory: a region
replaces its windows' arrays by what its write-backs leave and keeps every other buffer; the host stretch applies
its two operations. -/

section Run

variable (m : (ℓ : Loc nD τ sig) → Buf (Elt F) ℓ) (ρ : Dev nD → PrngReg)

/-- Core `c`'s buffers as launched. -/
abbrev cLaunch : Dev nD → Valuation τ sig (Elt F) := fun c b => (s₀ m ρ).mem ((c : Dev nD), b)
/-- The same, read at the TensorCore's references: what the degree region is entered from. -/
abbrev rLaunch : (c : Dev nD) → (b : Ref sig .tc) → Buf (Elt F) ((c : Thread nD τ).loc b) := fun c b => cLaunch m ρ c b

/-- After the degree region: its two arrays at what the write-backs leave, every other buffer as launched. -/
def cDeg (c : Dev nD) : Valuation τ sig (Elt F) :=
  Pipeline.withArrays spec0 c (cLaunch m ρ c) fun w => (dat0 (rLaunch m ρ) c).arrAt w cfg0.N
theorem cDeg_arr (c : Dev nD) (w : Fin cfg0.W) :
    cDeg m ρ c (Proc.devRef .tc (Pipeline.arrRef spec0 w)) = (dat0 (rLaunch m ρ) c).arrAt w cfg0.N := by
  unfold cDeg; exact Pipeline.withArrays_arr spec0 launch0.win.arr_inj c _ _ w
theorem cDeg_of_ne (c : Dev nD) (b : Ref sig .tc) (hb : ∀ w, Pipeline.arrRef spec0 w ≠ b) :
    cDeg m ρ c (Proc.devRef .tc b) = cLaunch m ρ c (Proc.devRef .tc b) := by
  unfold cDeg; exact Pipeline.withArrays_of_ne spec0 c _ _ b hb
abbrev rDeg : (c : Dev nD) → (b : Ref sig .tc) → Buf (Elt F) ((c : Thread nD τ).loc b) := fun c b => cDeg m ρ c b
theorem deg_arrays (c : Dev nD) (w : Fin cfg0.W) :
    (dat0 (rLaunch m ρ) c).arrAt w cfg0.N = rDeg m ρ c (Pipeline.arrRef spec0 w) := (cDeg_arr m ρ c w).symm
theorem deg_rest (c : Dev nD) : ∀ b, b ∉ Finset.univ.image (Pipeline.arrRef spec0) → rDeg m ρ c b = rLaunch m ρ c b :=
  fun b hb => cDeg_of_ne m ρ c b fun w e => hb (Finset.mem_image.mpr ⟨w, Finset.mem_univ _, e⟩)

/-- After the host stretch (the column of scales broadcast along the rows, the features multiplied by it): what the
    layer region is entered from. -/
abbrev cScaled : Dev nD → Valuation τ sig (Elt F) := fun c => StableHlo.after hostOps1 (cDeg m ρ c)
abbrev rScaled : (c : Dev nD) → (b : Ref sig .tc) → Buf (Elt F) ((c : Thread nD τ).loc b) := fun c b => cScaled m ρ c b

/-- After the layer region: its five arrays at what the write-backs leave, every other buffer as entered. -/
def cOut (c : Dev nD) : Valuation τ sig (Elt F) :=
  Pipeline.withArrays spec1 c (cScaled m ρ c) fun w => (dat1 (rScaled m ρ) c).arrAt w cfg1.N
theorem cOut_arr (c : Dev nD) (w : Fin cfg1.W) :
    cOut m ρ c (Proc.devRef .tc (Pipeline.arrRef spec1 w)) = (dat1 (rScaled m ρ) c).arrAt w cfg1.N := by
  unfold cOut; exact Pipeline.withArrays_arr spec1 launch1.win.arr_inj c _ _ w
theorem cOut_of_ne (c : Dev nD) (b : Ref sig .tc) (hb : ∀ w, Pipeline.arrRef spec1 w ≠ b) :
    cOut m ρ c (Proc.devRef .tc b) = cScaled m ρ c (Proc.devRef .tc b) := by
  unfold cOut; exact Pipeline.withArrays_of_ne spec1 c _ _ b hb
abbrev rOut : (c : Dev nD) → (b : Ref sig .tc) → Buf (Elt F) ((c : Thread nD τ).loc b) := fun c b => cOut m ρ c b
theorem out_arrays (c : Dev nD) (w : Fin cfg1.W) :
    (dat1 (rScaled m ρ) c).arrAt w cfg1.N = rOut m ρ c (Pipeline.arrRef spec1 w) := (cOut_arr m ρ c w).symm
theorem out_rest (c : Dev nD) : ∀ b, b ∉ Finset.univ.image (Pipeline.arrRef spec1) → rOut m ρ c b = rScaled m ρ c b :=
  fun b hb => cOut_of_ne m ρ c b fun w e => hb (Finset.mem_image.mpr ⟨w, Finset.mem_univ _, e⟩)

/-! ## No boundary changes an argument array

An argument is an input window's array of a region (kept by the region: `Dat.arrAt_in`) or bypasses it, and neither
host operation writes one. -/

/-- Neither host operation writes the buffer `b`, for `b` other than the two buffers they define. -/
theorem scaled_keeps (c : Dev nD) (b : Ref sig .tc) (h1 : b ≠ main_v1) (h2 : b ≠ main_v2) :
    cScaled m ρ c (Proc.devRef .tc b) = cDeg m ρ c (Proc.devRef .tc b) :=
  StableHlo.after_of_forall_not_mem (b := Proc.devRef .tc b) _ _ (List.forall_iff_forall_mem.mp (by
    simp only [hostOps1, List.Forall, StableHlo.unary_writes, StableHlo.binary_writes, Finset.mem_singleton]
    exact ⟨StableHlo.devRef_ne_of_ne h1, StableHlo.devRef_ne_of_ne h2⟩))

theorem cOut_main_arg0 (c : Dev nD) : cOut m ρ c (Proc.devRef .tc main_arg0) = m ((c : Thread nD τ).loc main_arg0) :=
  calc cOut m ρ c (Proc.devRef .tc main_arg0)
    _ = cScaled m ρ c (Proc.devRef .tc main_arg0) := cOut_of_ne m ρ c main_arg0 (by decide)
    _ = cDeg m ρ c (Proc.devRef .tc main_arg0) := scaled_keeps m ρ c main_arg0 (by decide) (by decide)
    _ = cLaunch m ρ c (Proc.devRef .tc main_arg0) := cDeg_of_ne m ρ c main_arg0 (by decide)
    _ = m ((c : Thread nD τ).loc main_arg0) := rfl

theorem cDeg_main_arg1 (c : Dev nD) : cDeg m ρ c (Proc.devRef .tc main_arg1) = m ((c : Thread nD τ).loc main_arg1) :=
  (cDeg_arr m ρ c 0).trans (((dat0 (rLaunch m ρ) c).arrAt_in 0 rfl _).trans (A_eq0 (rLaunch m ρ) c 0))

theorem cScaled_main_arg1 (c : Dev nD) : cScaled m ρ c (Proc.devRef .tc main_arg1) = m ((c : Thread nD τ).loc main_arg1) :=
  (scaled_keeps m ρ c main_arg1 (by decide) (by decide)).trans (cDeg_main_arg1 m ρ c)

theorem cOut_main_arg1 (c : Dev nD) : cOut m ρ c (Proc.devRef .tc main_arg1) = m ((c : Thread nD τ).loc main_arg1) :=
  (cOut_arr m ρ c 0).trans ((((dat1 (rScaled m ρ) c).arrAt_in 0 rfl _).trans (A_eq1 (rScaled m ρ) c 0)).trans
    (cScaled_main_arg1 m ρ c))

theorem cScaled_main_arg2 (c : Dev nD) : cScaled m ρ c (Proc.devRef .tc main_arg2) = m ((c : Thread nD τ).loc main_arg2) :=
  (scaled_keeps m ρ c main_arg2 (by decide) (by decide)).trans (cDeg_of_ne m ρ c main_arg2 (by decide))

theorem cOut_main_arg2 (c : Dev nD) : cOut m ρ c (Proc.devRef .tc main_arg2) = m ((c : Thread nD τ).loc main_arg2) :=
  (cOut_arr m ρ c 3).trans ((((dat1 (rScaled m ρ) c).arrAt_in 3 rfl _).trans (A_eq1 (rScaled m ρ) c 3)).trans
    (cScaled_main_arg2 m ρ c))

/-! ## The proof data of both pipelines, and what rides beside the buffers -/

/-- No pallas_call has a prefetched table. -/
abbrev noTables : (p : Fin 2) → (pcfgs (F := F) p).Adm := fun p => (cfgs p).toPCfg_adm

/-- Each pipeline's proof data at the contents its region is entered from. -/
def pdats : (p : Fin 2) → (c : Dev nD) → Dat τ (Elt F) Unit ℕ (UR sig nD τ) ℕ (Pipeline.pin (pcfgs (F := F)) noTables p) c
  | ⟨0, _⟩ => fun c => dat0 (rLaunch m ρ) c
  | ⟨1, _⟩ => fun c => dat1 (rScaled m ρ) c

abbrev noVariants : Variants := Variants.none
/-- No core waits for another: no level is assigned. -/
abbrev noLevels : GSem nD τ sig → Finset Unit := fun _ => ∅
abbrev levelOf : GSem nD τ sig → Unit → ℕ := fun _ _ => 0

/-- Beside the buffers, through every segment: the core's generator register at some state, and the core owing nothing. -/
abbrev beside (c : Dev nD) : sProp 𝕄 :=
  iprop((∃ r, prngReg c r) ∗ ∃ W, owes (c : Thread nD τ) (0 : CellTallies nD τ sig Unit) W)

theorem hostOps1_allocates_nothing : (hostOps1 : List (HloOp τ sig (Elt F))).Forall fun op => op.fresh = ∅ := by
  simp only [List.Forall]; repeat' constructor

/-- The host stretch as a segment from the contents `cDeg`. -/
abbrev scaleSeg : Pipeline.HostSeg (Name := ℕ) (U := UR sig nD τ) (pcfgs (F := F)) defs₀ noVariants noLevels levelOf :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_allocates_nothing) op h) (cDeg m ρ) beside

/-- The last thread state, without the `owes`. -/
abbrev atEnd (c : Dev nD) : sProp 𝕄 :=
  iprop(StableHlo.held (c : Thread nD τ) (Pipeline.ucRefs τ sig) (cOut m ρ c) ∗ ∃ r, prngReg c r)

/-! ## The two regions as segments -/

set_option backward.isDefEq.respectTransparency.types false in
/-- The degree region: entered from every unscoped buffer as launched, left with them at `cDeg`. Its arrays are
    split out of the unscoped buffers and put back at their final contents; the generator register goes into the
    region's invariant and comes back; nothing is owed; the kernel has no semaphore of its own. -/
def degRegion : Pipeline.RegionSeg (pcfgs (F := F)) noTables (pdats m ρ) () defs₀ noVariants noLevels levelOf 0 where
  win := launch0.win.to₀
  block_pos := launch0.block_pos
  stage_whole := launch0.stage_whole
  K := PEmpty
  osem k := k.elim
  ho := Pipeline.OwnSemFacts.none _
  hbody c := (body_obligation0 (rLaunch m ρ) c).loose
  hwaits := Pipeline.hwaits_of_owed_zero _ _ _ _ noLevels levelOf 0 fun _ _ => rfl
  pre c := iprop(StableHlo.held (c : Thread nD τ) (Pipeline.ucRefs τ sig) (cLaunch m ρ c) ∗ beside c)
  post c := iprop(StableHlo.held (c : Thread nD τ) (Pipeline.ucRefs τ sig) (cDeg m ρ c) ∗ beside c)
  X c := iprop(∃ r, prngReg c r)
  Y c := iprop(∃ r, prngReg c r)
  Z c := Pipeline.unscopedRest (Ix := Unit) (Name := ℕ) (U := UR sig nD τ) (Lvl := ℕ) spec0 c (rLaunch m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (rLaunch m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (rLaunch m ρ c) (rDeg m ρ c) ((pdats m ρ 0 c).arrAt · cfg0.N) (deg_arrays m ρ c) (deg_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The layer region: entered from the contents after the host stretch, left with every unscoped buffer at `cOut`. The
    region's invariant starts as the class's (every scratch at anything) and ends giving that back: between points it
    tracks the accumulator scratch. -/
def layerRegion : Pipeline.RegionSeg (pcfgs (F := F)) noTables (pdats m ρ) () defs₀ noVariants noLevels levelOf 1 where
  win := launch1.win.to₀
  block_pos := launch1.block_pos
  stage_whole := launch1.stage_whole
  K := PEmpty
  osem k := k.elim
  ho := Pipeline.OwnSemFacts.none _
  hbody c := (body_obligation1 (rScaled m ρ) c).loose
  hwaits := Pipeline.hwaits_of_owed_zero _ _ _ _ noLevels levelOf 1 fun _ _ => rfl
  pre c := iprop(StableHlo.held (c : Thread nD τ) (Pipeline.ucRefs τ sig) (cScaled m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (rScaled m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (rScaled m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (rScaled m ρ) c
    unfold Pipeline.ΦA at h
    rw [show (pdats m ρ 1 c).Φ 0 = (dat1 (rScaled m ρ) c).Φ 0 from rfl]
    iintro ⟨Hp, -, Hr⟩
    iapply h
    isplitl [Hr]; · iexact Hr
    iexact Hp
  hout c := by
    have h := hout1 (rScaled m ρ) c
    unfold Pipeline.ΦA at h
    rw [Pipeline.ownSems0_none, show (pdats m ρ 1 c).Φ (Fin.last _) = (dat1 (rScaled m ρ) c).Φ (Fin.last cfg1.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (rScaled m ρ c) (rOut m ρ c) ((pdats m ρ 1 c).arrAt · cfg1.N) (out_arrays m ρ c) (out_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as three segments, and the launch -/

abbrev segments : List (Pipeline.Seg (pcfgs (F := F)) noTables (pdats m ρ) () defs₀ noVariants noLevels levelOf) :=
  [ .region (degRegion m ρ), .host (scaleSeg m ρ), .region (layerRegion m ρ) ]

theorem main_is_segments (c : Dev nD) : main (F := F) c = Pipeline.Seg.run (segments m ρ) :=
  (main_chain c).trans (by chain_rfl)

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and
    in every final state each unscoped buffer of each core holds the last fold `cOut`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = cOut m ρ c b) :=
  Pipeline.θ_run_regions_kit (pcfgs (F := F)) noTables (pdats m ρ) () cellOf_inj emb₁ defs₀ noVariants noLevels levelOf m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (cLaunch m ρ c) ∗ beside c)) (Tₙ := atEnd m ρ)
    (hch := ⟨fun _ => .rfl, fun _ => .rfl, fun _ => .rfl, fun _ => .rfl⟩)
    (hinit := by
      refine Pipeline.initEach noLevels levelOf fun c => ?_
      rw [show unscopedBufs c (fun b => m ((c : Thread nD τ).loc b)) = StableHlo.held (c : Thread nD τ) (Pipeline.ucRefs τ sig) (cLaunch m ρ c)
        from Pipeline.unscopedBufs_held c (cLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = cOut m ρ c b)
    (hfin := fun c s' => by
      iintro ⟨⟨Hh, -⟩, HSI⟩
      unfold StableHlo.held
      imodintro
      iapply (pointsTo_read_all (Pipeline.ucRefs τ sig) (fun b => (((c : Thread nD τ)).1, b)) (cOut m ρ c) s')
      isplitl [Hh] <;> iassumption)
    (hQ := fun s h c => h c)

/-- THE FRAME, at any instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_unscoped main_arg0 (by decide))).trans (cOut_main_arg0 m ρ c),
     (h c _ (mem_unscoped main_arg1 (by decide))).trans (cOut_main_arg1 m ρ c),
     (h c _ (mem_unscoped main_arg2 (by decide))).trans (cOut_main_arg2 m ρ c)⟩) (run_all m ρ)

end Run

end Cert.Kernel.Hand

end
-- ==== Proof.KI.R0RunA.lean ====
/-
  The degree kernel runs on a grid of 8 row blocks by 2 column halves; the point t = 2 i + k handles the
  1024 x 4096 block (i, k) of the adjacency array and keeps a 1024 x 1 column for row block i.  Its two
  conditionals look only at the column coordinate k: the first (k = 0) resets the column to zero, the second
  (k = 1) turns the accumulated column into guarded reciprocal square roots.  So the grid meets two cases:
  the even points (reset, then add the half-row sums) and the odd points (add the half-row sums to what the
  even point left, then finish).

  This module states the two conditions, decides them over the 16 points in closed form, and runs the body
  in the first case: on an input block x0 and ANY previous contents of the column buffer, the body ends with
  the column buffer written by a list of stores, which the run itself produces.
-/
import proofs.«179531_j47261820125198_2_alg».proof.Proof.Gen.KernelIdeal.Launch
import proofs.«179531_j47261820125198_2_alg».proof.Proof.Gen.KernelIdeal.Skeleton
import proofs.«179531_j47261820125198_2_alg».proof.Proof.Gen.KernelIdeal.Points
import Idealize.ShloMosaic.Lib.Pipeline.FrameBody
import Idealize.ShloMosaic.Lib.Ring
import Idealize.ShloMosaic.Lib.Tactic

-- membership of an index in a rectangle with an axis of several thousand entries is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the degree kernel, from the grid coordinates -/

/-- "The column coordinate is 0": the scalar chain the body computes before its first conditional. -/
abbrev cond0_0 (i : grid0.Coords) : Prop :=
  (Scalar.cmpi .ne (Scalar.extui (Scalar.cmpi .eq (BitVec.ofNat 32 (i 1).val) 0#32)) 0#32) = 1#1
/-- It holds exactly at the even points (t = 2 i + k with k = 0). -/
theorem hcond0_0 : ∀ t : Fin cfg0.N, cond0_0 (grid0.coords t) ↔ t.val % 2 = 0 :=
  (by decide +kernel : ∀ t : Fin grid0.N, cond0_0 (grid0.coords t) ↔ t.val % 2 = 0)

/-- "The column coordinate is 1": the scalar chain before the second conditional. -/
abbrev cond0_1 (i : grid0.Coords) : Prop :=
  (Scalar.cmpi .ne (Scalar.extui (Scalar.cmpi .eq (BitVec.ofNat 32 (i 1).val) 1#32)) 0#32) = 1#1
/-- It holds exactly at the odd points (k = 1). -/
theorem hcond0_1 : ∀ t : Fin cfg0.N, cond0_1 (grid0.coords t) ↔ t.val % 2 = 1 :=
  (by decide +kernel : ∀ t : Fin grid0.N, cond0_1 (grid0.coords t) ↔ t.val % 2 = 1)

/-! ## The column buffer through one fixed view -/

/-- One of the two staging buffers of the column window, through which the column's contents are stated: reading
    back a list of stores that covers the buffer does not depend on the buffer chosen. -/
abbrev VO0_1 : View sig .tc .vmem S1024x1 .f32 := (Memref.whole cc0_stg1_0 : Memref sig .tc .vmem S1024x1 .f32).view

/-- The staging memref each window is on at point t, and its wholeness. -/
abbrev ms0_0 (t : Fin cfg0.N) : Memref sig .tc .vmem S1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)

/-! ## The body at an even point -/

set_option maxHeartbeats 1000000 in
/-- At a point with k = 0 (first conditional taken, second not): with the input buffer at the block x0 and the
    column buffer at anything, the body returns the input buffer as it was and the column buffer written by the
    stores L1 (last first) — the reset and the accumulation —, L1 being what the run of the body produces. -/
noncomputable def kernelRun0_A (c : Dev nD) (i : grid0.Coords) (arg2 : Memref sig .tc .vmem S1024x4096 .f32) (harg2 : arg2.IsWhole)
    (arg3 : Memref sig .tc .vmem S1024x1 .f32) (harg3 : arg3.IsWhole) (hc0 : cond0_0 i) (hc1 : ¬cond0_1 i)
    (x0 : Vec F S1024x4096 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.KernelIdeal.Hand

end
-- ==== Proof.KI.R0RunB.lean ====
/-
  The degree kernel at an odd point (column half k = 1): the reset is skipped, the half-row sums of the input
  block are added to the column the even point before left, and the last conditional replaces the column by
  the guarded reciprocal square roots.  On an input block x0 and previous column contents xo1 the body ends
  with the column buffer written by a list of stores which the run itself produces.
-/
import proofs.«179531_j47261820125198_2_alg».proof.Proof.KI.R0RunA

-- membership of an index in a rectangle with an axis of several thousand entries is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1 (first conditional not taken, second taken): with the input buffer at the block x0
    and the column buffer at xo1, the body returns the input buffer as it was and the column buffer written by
    the stores L1 (last first) — the accumulation and the final guarded reciprocal square root. -/
noncomputable def kernelRun0_B (c : Dev nD) (i : grid0.Coords) (arg2 : Memref sig .tc .vmem S1024x4096 .f32) (harg2 : arg2.IsWhole)
    (arg3 : Memref sig .tc .vmem S1024x1 .f32) (harg3 : arg3.IsWhole) (hc0 : ¬cond0_0 i) (hc1 : cond0_1 i)
    (x0 : Vec F S1024x4096 .f32) (xo1 : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Hand

end
-- ==== Proof.KI.R0Frame.lean ====
/-
  The degree region as the pipeline sees it, at any contents V of the core's buffers when the region is entered.

  The grid has 16 points t = 2 i + k.  Window 0 is the 1024 x 4096 block (i, k) of the adjacency array, fetched at
  every point; window 1 is the 1024 x 1 column of row block i, whose block index does not move from an even point
  to the odd point after it and which is written back at the odd points only.  So the column an even point leaves —
  zero plus the half-row sums of its block — is what the odd point after it finds, adds its own half-row sums to and
  turns into guarded reciprocal square roots.

  This module defines what the column buffer holds after each point by recursion on the point (outsAt0), states it
  through the body's named values (outsAt0_even, outsAt0_odd), gives the pipeline's proof data (dat0) and proves the
  body obligation from the two runs of the body.
-/
import proofs.«179531_j47261820125198_2_alg».proof.Proof.KI.R0RunB
import Idealize.ShloMosaic.Lib.Pipeline.Value

-- membership of an index in a rectangle with an axis of several thousand entries is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    V's and whose body leaves the block in place: the window is fetched whole (never clipped, never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Which case a point is in -/

theorem cond0_0_of_even (t : Fin cfg0.N) (h : t.val % 2 = 0) : cond0_0 (grid0.coords t) := (hcond0_0 t).mpr h
theorem not_cond0_1_of_even (t : Fin cfg0.N) (h : t.val % 2 = 0) : ¬cond0_1 (grid0.coords t) :=
  fun hc => by have := (hcond0_1 t).mp hc; omega
theorem not_cond0_0_of_odd (t : Fin cfg0.N) (h : t.val % 2 = 1) : ¬cond0_0 (grid0.coords t) :=
  fun hc => by have := (hcond0_0 t).mp hc; omega
theorem cond0_1_of_odd (t : Fin cfg0.N) (h : t.val % 2 = 1) : cond0_1 (grid0.coords t) := (hcond0_1 t).mpr h

/-! ## What each case leaves in the column buffer -/

theorem hz2 : (![0, 0] : Fin 2 → Nat) = fun _ => 0 := funext fun a => by fin_cases a <;> rfl

/-- The stores of an even point tile the column (two stores of the whole 1024 x 1 block), so they cover it. -/
theorem cover0_A_1 (c : Dev nD) (i : grid0.Coords) (arg2 : Memref sig .tc .vmem S1024x4096 .f32) (harg2 : arg2.IsWhole)
    (arg3 : Memref sig .tc .vmem S1024x1 .f32) (harg3 : arg3.IsWhole) (hc0 : cond0_0 i) (hc1 : ¬cond0_1 i)
    (x0 : Vec F S1024x4096 .f32) (y : S1024x1.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1024x1.size (by sl_kernel_rfl) y

/-- What an even point leaves in the column buffer: its stores read back. -/
def out0_A_1 (c : Dev nD) (i : grid0.Coords) (arg2 : Memref sig .tc .vmem S1024x4096 .f32) (harg2 : arg2.IsWhole)
    (arg3 : Memref sig .tc .vmem S1024x1 .f32) (harg3 : arg3.IsWhole) (hc0 : cond0_0 i) (hc1 : ¬cond0_1 i)
    (x0 : Vec F S1024x4096 .f32) : Vec F S1024x1 .f32 :=
  VO0_1.read (Elt F) (VO0_1.writes (Elt F) VO0_1.junk (kernelRun0_A c i arg2 harg2 arg3 harg3 hc0 hc1 x0).1)

/-- The stores of an odd point tile the column, so they cover it. -/
theorem cover0_B_1 (c : Dev nD) (i : grid0.Coords) (arg2 : Memref sig .tc .vmem S1024x4096 .f32) (harg2 : arg2.IsWhole)
    (arg3 : Memref sig .tc .vmem S1024x1 .f32) (harg3 : arg3.IsWhole) (hc0 : ¬cond0_0 i) (hc1 : cond0_1 i)
    (x0 : Vec F S1024x4096 .f32) (xo1 : Vec F S1024x1 .f32) (y : S1024x1.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S1024x1.size (by sl_kernel_rfl) y

/-- What an odd point leaves in the column buffer: its stores read back. -/
def out0_B_1 (c : Dev nD) (i : grid0.Coords) (arg2 : Memref sig .tc .vmem S1024x4096 .f32) (harg2 : arg2.IsWhole)
    (arg3 : Memref sig .tc .vmem S1024x1 .f32) (harg3 : arg3.IsWhole) (hc0 : ¬cond0_0 i) (hc1 : cond0_1 i)
    (x0 : Vec F S1024x4096 .f32) (xo1 : Vec F S1024x1 .f32) : Vec F S1024x1 .f32 :=
  VO0_1.read (Elt F) (VO0_1.writes (Elt F) VO0_1.junk (kernelRun0_B c i arg2 harg2 arg3 harg3 hc0 hc1 x0 xo1).1)

/-- An even point leaves the half-row sums of its block added to the zero column: the reset is stored, read back
    whole, and the sum stored over it. -/
theorem out0_A_1_eq (c : Dev nD) (i : grid0.Coords) (arg2 : Memref sig .tc .vmem S1024x4096 .f32) (harg2 : arg2.IsWhole)
    (arg3 : Memref sig .tc .vmem S1024x1 .f32) (harg3 : arg3.IsWhole) (hc0 : cond0_0 i) (hc1 : ¬cond0_1 i)
    (x0 : Vec F S1024x4096 .f32) :
    out0_A_1 c i arg2 harg2 arg3 harg3 hc0 hc1 x0 = k0_pay2 (k0_pay1 (F := F)) x0 := by
  unfold out0_A_1
  rw [View.read_writes_eq_canon _ _ _ (cover0_A_1 c i arg2 harg2 arg3 harg3 hc0 hc1 x0)]
  unfold kernelRun0_A
  dsimp only
  sl_unfold_words
  rw [View.canon_cons_unit_zero (S := S1024x1) hz2, View.readCov_unit_zero (S := S1024x1) _ hz2]
  simp only [View.readAt_eq_ld, harg2.read_unread, View.ld_unit_zero (S := S1024x4096) hz2]

/-- An odd point leaves the guarded reciprocal square root of the column it found plus the half-row sums of its
    block: the sum is stored, read back whole, and the result stored over it. -/
theorem out0_B_1_eq (c : Dev nD) (i : grid0.Coords) (arg2 : Memref sig .tc .vmem S1024x4096 .f32) (harg2 : arg2.IsWhole)
    (arg3 : Memref sig .tc .vmem S1024x1 .f32) (harg3 : arg3.IsWhole) (hc0 : ¬cond0_0 i) (hc1 : cond0_1 i)
    (x0 : Vec F S1024x4096 .f32) (xo1 : Vec F S1024x1 .f32) :
    out0_B_1 c i arg2 harg2 arg3 harg3 hc0 hc1 x0 xo1 = k0_pay3 (k0_pay2 xo1 x0) := by
  unfold out0_B_1
  rw [View.read_writes_eq_canon _ _ _ (cover0_B_1 c i arg2 harg2 arg3 harg3 hc0 hc1 x0 xo1)]
  unfold kernelRun0_B
  dsimp only
  sl_unfold_words
  rw [View.canon_cons_unit_zero (S := S1024x1) hz2, View.readCov_unit_zero (S := S1024x1) _ hz2]
  simp only [View.readAt_eq_ld, harg2.read_unread, harg3.read_unread, View.ld_unit_zero (S := S1024x4096) hz2,
    View.ld_unit_zero (S := S1024x1) hz2]

/-! ## What the column buffer holds after each point -/

/-- The even case at point t, run at the point's memrefs and input block. -/
def outA (c : Dev nD) (t : Fin cfg0.N) (h : t.val % 2 = 0) : Vec F S1024x1 .f32 :=
  out0_A_1 c (grid0.coords t) (ms0_0 t) (hs0_0 t) (ms0_1 t) (hs0_1 t) (cond0_0_of_even t h) (not_cond0_1_of_even t h) (iblk0 V c 0 t)

/-- The odd case at point t, over the column xo the point before left. -/
def outB (c : Dev nD) (t : Fin cfg0.N) (h : t.val % 2 = 1) (xo : Vec F S1024x1 .f32) : Vec F S1024x1 .f32 :=
  out0_B_1 c (grid0.coords t) (ms0_0 t) (hs0_0 t) (ms0_1 t) (hs0_1 t) (not_cond0_0_of_odd t h) (cond0_1_of_odd t h) (iblk0 V c 0 t) xo

/-- What output window 1's staging buffer holds after the body at position n: at an even position the even case on
    the point's block, at an odd position the odd case over what position n - 1 left (the column is not written
    back in between and its block index does not move). -/
def outsAt0 (c : Dev nD) : (n : ℕ) → n < cfg0.N → Vec F S1024x1 .f32
  | 0, hn => outA V c ⟨0, hn⟩ (Nat.zero_mod 2)
  | n + 1, hn =>
    if h0 : (n + 1) % 2 = 0 then outA V c ⟨n + 1, hn⟩ h0
    else outB V c ⟨n + 1, hn⟩ (Nat.mod_two_ne_zero.mp h0) (outsAt0 c n (Nat.lt_of_succ_lt hn))

theorem outsAt0_A (c : Dev nD) (t : Fin cfg0.N) (h : t.val % 2 = 0) : outsAt0 V c t.val t.isLt = outA V c t h := by
  obtain ⟨n, hn⟩ := t
  cases n with
  | zero => exact rfl
  | succ n => exact (dif_pos h).trans rfl

theorem outsAt0_B (c : Dev nD) (t : Fin cfg0.N) (h : t.val % 2 = 1) :
    outsAt0 V c t.val t.isLt = outB V c t h (outsAt0 V c (t.val - 1) (Nat.lt_of_le_of_lt (Nat.sub_le _ _) t.isLt)) := by
  obtain ⟨n, hn⟩ := t
  cases n with
  | zero => exact absurd (show (0 : ℕ) % 2 = 1 from h) (by decide)
  | succ n => exact (dif_neg (fun h0 => by have h' : (n + 1) % 2 = 1 := h; omega)).trans rfl

/-- After an even point the column is the zero column plus the half-row sums of the point's block. -/
theorem outsAt0_even (c : Dev nD) (t : Fin cfg0.N) (h : t.val % 2 = 0) :
    outsAt0 V c t.val t.isLt = k0_pay2 (k0_pay1 (F := F)) (iblk0 V c 0 t) := by
  rw [outsAt0_A V c t h]; unfold outA
  exact out0_A_1_eq c (grid0.coords t) (ms0_0 t) (hs0_0 t) (ms0_1 t) (hs0_1 t) (cond0_0_of_even t h) (not_cond0_1_of_even t h) (iblk0 V c 0 t)

/-- After an odd point the column is the guarded reciprocal square root of what the even point before left plus
    the half-row sums of the point's block. -/
theorem outsAt0_odd (c : Dev nD) (t : Fin cfg0.N) (h : t.val % 2 = 1) :
    outsAt0 V c t.val t.isLt = k0_pay3 (k0_pay2 (outsAt0 V c (t.val - 1) (by omega)) (iblk0 V c 0 t)) := by
  rw [outsAt0_B V c t h]; unfold outB
  exact out0_B_1_eq c (grid0.coords t) (ms0_0 t) (hs0_0 t) (ms0_1 t) (hs0_1 t) (not_cond0_0_of_odd t h) (cond0_1_of_odd t h) (iblk0 V c 0 t) _

/-! ## The pipeline's proof data -/

/-- The proof data of the degree pipeline on core c: the arrays as the region finds them; after the body at point
    t the input's buffer at its block and the column's at outsAt0; the invariant is the scoped rest and the
    generator register, which the body does not touch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = outsAt0 V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At an odd point the column's current staging buffer holds what the body left at the even point before: the
    point is not the first and the column was not written back in between. -/
theorem before0_1_odd (c : Dev nD) (t : Fin cfg0.N) (h : t.val % 2 = 1) (d) :
    (dat0 V c).before 1 t d = outsAt0 V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun hf => by have := (flush0_1 _).mp hf; dsimp only at this; omega)
    (fun _ => rfl) (fun _ _ => rfl)]
  dsimp only [dat0]

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the point's parity says which case it is in; at an
    odd point the column holds what the even point before left; so that case's run applies; the invariant passes
    through unread and nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 2 = 0
  · rw [outsAt0_A V c t h0]
    unfold outA out0_A_1
    iintro ⟨HΦ, Ho, ⟨%d0, H0⟩, ⟨%d1, H1⟩⟩
    iapply ((kernelRun0_A c (grid0.coords t) _ _ _ _ (cond0_0_of_even t h0) (not_cond0_1_of_even t h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · have h1 : t.val % 2 = 1 := Nat.mod_two_ne_zero.mp h0
    rw [outsAt0_B V c t h1]
    simp only [before0_1_odd V c t h1]
    unfold outB out0_B_1
    iintro ⟨HΦ, Ho, ⟨%d0, H0⟩, ⟨%d1, H1⟩⟩
    iapply ((kernelRun0_B c (grid0.coords t) _ _ _ _ (not_cond0_0_of_odd t h1) (cond0_1_of_odd t h1) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«179531_j47261820125198_2_alg».proof.Proof.Gen.KernelIdeal.Launch
import proofs.«179531_j47261820125198_2_alg».proof.Proof.Gen.KernelIdeal.Skeleton
import proofs.«179531_j47261820125198_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (pipeline 1): what its three cases share

The grid is 8 x 4, point `t = 4 i + k`. At `k = 0` the accumulator is zeroed and then receives the first
partial product; at `k = 1, 2` it receives one more; at `k = 3` it receives the last one and the output block
is computed from it. Everything is stated at a parameter `V`: the buffer contents when the region is entered. -/

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The first condition (`k = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (`k = 3`). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where `k ≠ 3` nothing is stored into the output's buffer and it is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- Where `k = 3` the output's buffer is stored into. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x64 .f32 := (Memref.whole cc1_stg4_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S1024x128 .f32 := Memref.whole cc1_scratch0
abbrev VS1_0 : View sig .tc .vmem S1024x128 .f32 := scM1_0.view

/-- The rectangle of the slice of the scaled features the body loads at grid coordinates `i`:
    rows `2048 k` to `2048 k + 2047`, all 128 columns. -/
abbrev rX1 (i : grid1.Coords) : Rect S8192x128 := Rect.unit (s := S8192x128) (k1_off1 i) S2048x128.size (k1_off1_inb i)

/-- The region's invariant with the accumulator as a memref owned at some contents; the other pallas_call's staging
    buffers are each whole at some contents and pass through untouched. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.R1RunA.lean ====
import proofs.«179531_j47261820125198_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at `k = 0`

The accumulator, whatever it held, is zeroed and then receives the first partial product; the output's buffer is
handed back as found. The pieces the accumulator ends with are the witness the symbolic run finds. -/

set_option maxHeartbeats 4000000 in
noncomputable def kernelRun1_A (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S8192x128 .f32) (x2 : Vec F S1024x1 .f32) (x3 : Vec F S128x64 .f32) :
    Σ' (L4 : List (View.Piece (Elt F) S1024x64 .f32)), { LS0 : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunB.lean ====
import proofs.«179531_j47261820125198_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at `k = 1, 2`

The accumulator, at what the point before left in it, receives one more partial product; the output's buffer is
handed back as found. -/

set_option maxHeartbeats 4000000 in
noncomputable def kernelRun1_B (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S8192x128 .f32) (x2 : Vec F S1024x1 .f32) (x3 : Vec F S128x64 .f32) (xs0 : Vec F S1024x128 .f32) :
    Σ' (L4 : List (View.Piece (Elt F) S1024x64 .f32)), { LS0 : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunC.lean ====
import proofs.«179531_j47261820125198_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at `k = 3`

The accumulator receives the last partial product, and the output's buffer, whatever it held, is stored whole:
the accumulated product scaled row by row, multiplied by the weights and clamped below at zero. -/

set_option maxHeartbeats 4000000 in
noncomputable def kernelRun1_C (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) :
    Σ' (L4 : List (View.Piece (Elt F) S1024x64 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R1Frame.lean ====
import proofs.«179531_j47261820125198_2_alg».proof.Proof.KI.R1RunA
import proofs.«179531_j47261820125198_2_alg».proof.Proof.KI.R1RunB
import proofs.«179531_j47261820125198_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (pipeline 1): proof data and body obligation

Stated at a parameter `V`, the buffer contents when the region is entered. -/

variable (V : (c : Dev nD) → (b : Ref sig .tc) → Buf (Elt F) ((c : Thread nD τ).loc b))

/-- At these points nothing is stored into the output's buffer: no pieces, and a placeholder value that nothing consults
    (the window is idle there and not written back). -/
def out1_A_4 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S8192x128 .f32) (x2 : Vec F S1024x1 .f32) (x3 : Vec F S128x64 .f32) : Vec F S1024x64 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- The stores into the accumulator cover it. -/
theorem scover1_A_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S8192x128 .f32) (x2 : Vec F S1024x1 .f32) (x3 : Vec F S128x64 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What the accumulator holds after the body: its pieces read back. -/
def sout1_A_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S8192x128 .f32) (x2 : Vec F S1024x1 .f32) (x3 : Vec F S128x64 .f32) : Vec F S1024x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- At these points nothing is stored into the output's buffer: no pieces, and a placeholder value that nothing consults
    (the window is idle there and not written back). -/
def out1_B_4 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S8192x128 .f32) (x2 : Vec F S1024x1 .f32) (x3 : Vec F S128x64 .f32) (xs0 : Vec F S1024x128 .f32) : Vec F S1024x64 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- The stores into the accumulator cover it. -/
theorem scover1_B_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S8192x128 .f32) (x2 : Vec F S1024x1 .f32) (x3 : Vec F S128x64 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What the accumulator holds after the body: its pieces read back. -/
def sout1_B_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S8192x128 .f32) (x2 : Vec F S1024x1 .f32) (x3 : Vec F S128x64 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- The one store into the output's buffer covers it. -/
theorem cover1_C_4 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) (y : S1024x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x64.size (by sl_kernel_rfl) y

/-- What the output's buffer holds after the body: its pieces read back. -/
def out1_C_4 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) : Vec F S1024x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- The stores into the accumulator cover it. -/
theorem scover1_C_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What the accumulator holds after the body: its pieces read back. -/
def sout1_C_0 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output's buffer and the accumulator hold after each point -/

/-- After the body at position `n`: (the output window's staging buffer, the accumulator). The closed forms select the
    case; a case that reads the accumulator takes it at what position `n - 1` left. -/
def outsAt1 (c : Dev nD) : (n : ℕ) → n < cfg1.N → Vec F S1024x64 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, tracking the accumulator -/

/-- Before position `n`: before the first point, what the launch hands the region; afterwards the other pallas_call's
    staging buffers at some contents, the accumulator at what position `n - 1` left, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' buffers hold their blocks; the closed forms of the two conditions say which of
    the three cases the point is in; the invariant hands the body the accumulator (at anything before the first point,
    afterwards at what the point before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HA, HB, HC, HD, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V c t, PhiS1_pos V c _ _ hz]
      ·
        iintro ⟨⟨⟨HA, HB, HC, HD, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      ·
        iintro ⟨⟨⟨HA, HB, HC, HD, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.Main.lean ====
/-
  The whole program as one run: the degree region, the host scaling of the features, the layer region.

  Each region's proof data says what its windows' arrays hold after its write-backs; between the regions a core's
  unscoped buffers are a fold from the launch memory. The run ends with every unscoped buffer at the last fold, from
  which the frame (each argument array as launched) is read here, and the result array's value elsewhere.
-/
import proofs.«179531_j47261820125198_2_alg».proof.Proof.KI.R0Frame
import proofs.«179531_j47261820125198_2_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: the degree region, the host scaling of the features, the layer region

The contents of a core's unscoped buffers at each boundary of @main are a fold from the launch memory: a region
replaces its windows' arrays by what its write-backs leave and keeps every other buffer; the host stretch applies
its two operations. -/

section Run

variable (m : (ℓ : Loc nD τ sig) → Buf (Elt F) ℓ) (ρ : Dev nD → PrngReg)

/-- Core `c`'s buffers as launched. -/
abbrev cLaunch : Dev nD → Valuation τ sig (Elt F) := fun c b => (s₀ m ρ).mem ((c : Dev nD), b)
/-- The same, read at the TensorCore's references: what the degree region is entered from. -/
abbrev rLaunch : (c : Dev nD) → (b : Ref sig .tc) → Buf (Elt F) ((c : Thread nD τ).loc b) := fun c b => cLaunch m ρ c b

/-- After the degree region: its two arrays at what the write-backs leave, every other buffer as launched. -/
def cDeg (c : Dev nD) : Valuation τ sig (Elt F) :=
  Pipeline.withArrays spec0 c (cLaunch m ρ c) fun w => (dat0 (rLaunch m ρ) c).arrAt w cfg0.N
theorem cDeg_arr (c : Dev nD) (w : Fin cfg0.W) :
    cDeg m ρ c (Proc.devRef .tc (Pipeline.arrRef spec0 w)) = (dat0 (rLaunch m ρ) c).arrAt w cfg0.N := by
  unfold cDeg; exact Pipeline.withArrays_arr spec0 launch0.win.arr_inj c _ _ w
theorem cDeg_of_ne (c : Dev nD) (b : Ref sig .tc) (hb : ∀ w, Pipeline.arrRef spec0 w ≠ b) :
    cDeg m ρ c (Proc.devRef .tc b) = cLaunch m ρ c (Proc.devRef .tc b) := by
  unfold cDeg; exact Pipeline.withArrays_of_ne spec0 c _ _ b hb
abbrev rDeg : (c : Dev nD) → (b : Ref sig .tc) → Buf (Elt F) ((c : Thread nD τ).loc b) := fun c b => cDeg m ρ c b
theorem deg_arrays (c : Dev nD) (w : Fin cfg0.W) :
    (dat0 (rLaunch m ρ) c).arrAt w cfg0.N = rDeg m ρ c (Pipeline.arrRef spec0 w) := (cDeg_arr m ρ c w).symm
theorem deg_rest (c : Dev nD) : ∀ b, b ∉ Finset.univ.image (Pipeline.arrRef spec0) → rDeg m ρ c b = rLaunch m ρ c b :=
  fun b hb => cDeg_of_ne m ρ c b fun w e => hb (Finset.mem_image.mpr ⟨w, Finset.mem_univ _, e⟩)

/-- After the host stretch (the column of scales broadcast along the rows, the features multiplied by it): what the
    layer region is entered from. -/
abbrev cScaled : Dev nD → Valuation τ sig (Elt F) := fun c => StableHlo.after hostOps1 (cDeg m ρ c)
abbrev rScaled : (c : Dev nD) → (b : Ref sig .tc) → Buf (Elt F) ((c : Thread nD τ).loc b) := fun c b => cScaled m ρ c b

/-- After the layer region: its five arrays at what the write-backs leave, every other buffer as entered. -/
def cOut (c : Dev nD) : Valuation τ sig (Elt F) :=
  Pipeline.withArrays spec1 c (cScaled m ρ c) fun w => (dat1 (rScaled m ρ) c).arrAt w cfg1.N
theorem cOut_arr (c : Dev nD) (w : Fin cfg1.W) :
    cOut m ρ c (Proc.devRef .tc (Pipeline.arrRef spec1 w)) = (dat1 (rScaled m ρ) c).arrAt w cfg1.N := by
  unfold cOut; exact Pipeline.withArrays_arr spec1 launch1.win.arr_inj c _ _ w
theorem cOut_of_ne (c : Dev nD) (b : Ref sig .tc) (hb : ∀ w, Pipeline.arrRef spec1 w ≠ b) :
    cOut m ρ c (Proc.devRef .tc b) = cScaled m ρ c (Proc.devRef .tc b) := by
  unfold cOut; exact Pipeline.withArrays_of_ne spec1 c _ _ b hb
abbrev rOut : (c : Dev nD) → (b : Ref sig .tc) → Buf (Elt F) ((c : Thread nD τ).loc b) := fun c b => cOut m ρ c b
theorem out_arrays (c : Dev nD) (w : Fin cfg1.W) :
    (dat1 (rScaled m ρ) c).arrAt w cfg1.N = rOut m ρ c (Pipeline.arrRef spec1 w) := (cOut_arr m ρ c w).symm
theorem out_rest (c : Dev nD) : ∀ b, b ∉ Finset.univ.image (Pipeline.arrRef spec1) → rOut m ρ c b = rScaled m ρ c b :=
  fun b hb => cOut_of_ne m ρ c b fun w e => hb (Finset.mem_image.mpr ⟨w, Finset.mem_univ _, e⟩)

/-! ## No boundary changes an argument array

An argument is an input window's array of a region (kept by the region: `Dat.arrAt_in`) or bypasses it, and neither
host operation writes one. -/

/-- Neither host operation writes the buffer `b`, for `b` other than the two buffers they define. -/
theorem scaled_keeps (c : Dev nD) (b : Ref sig .tc) (h1 : b ≠ main_v1) (h2 : b ≠ main_v2) :
    cScaled m ρ c (Proc.devRef .tc b) = cDeg m ρ c (Proc.devRef .tc b) :=
  StableHlo.after_of_forall_not_mem (b := Proc.devRef .tc b) _ _ (List.forall_iff_forall_mem.mp (by
    simp only [hostOps1, List.Forall, StableHlo.unary_writes, StableHlo.binary_writes, Finset.mem_singleton]
    exact ⟨StableHlo.devRef_ne_of_ne h1, StableHlo.devRef_ne_of_ne h2⟩))

theorem cOut_main_arg0 (c : Dev nD) : cOut m ρ c (Proc.devRef .tc main_arg0) = m ((c : Thread nD τ).loc main_arg0) :=
  calc cOut m ρ c (Proc.devRef .tc main_arg0)
    _ = cScaled m ρ c (Proc.devRef .tc main_arg0) := cOut_of_ne m ρ c main_arg0 (by decide)
    _ = cDeg m ρ c (Proc.devRef .tc main_arg0) := scaled_keeps m ρ c main_arg0 (by decide) (by decide)
    _ = cLaunch m ρ c (Proc.devRef .tc main_arg0) := cDeg_of_ne m ρ c main_arg0 (by decide)
    _ = m ((c : Thread nD τ).loc main_arg0) := rfl

theorem cDeg_main_arg1 (c : Dev nD) : cDeg m ρ c (Proc.devRef .tc main_arg1) = m ((c : Thread nD τ).loc main_arg1) :=
  (cDeg_arr m ρ c 0).trans (((dat0 (rLaunch m ρ) c).arrAt_in 0 rfl _).trans (A_eq0 (rLaunch m ρ) c 0))

theorem cScaled_main_arg1 (c : Dev nD) : cScaled m ρ c (Proc.devRef .tc main_arg1) = m ((c : Thread nD τ).loc main_arg1) :=
  (scaled_keeps m ρ c main_arg1 (by decide) (by decide)).trans (cDeg_main_arg1 m ρ c)

theorem cOut_main_arg1 (c : Dev nD) : cOut m ρ c (Proc.devRef .tc main_arg1) = m ((c : Thread nD τ).loc main_arg1) :=
  (cOut_arr m ρ c 0).trans ((((dat1 (rScaled m ρ) c).arrAt_in 0 rfl _).trans (A_eq1 (rScaled m ρ) c 0)).trans
    (cScaled_main_arg1 m ρ c))

theorem cScaled_main_arg2 (c : Dev nD) : cScaled m ρ c (Proc.devRef .tc main_arg2) = m ((c : Thread nD τ).loc main_arg2) :=
  (scaled_keeps m ρ c main_arg2 (by decide) (by decide)).trans (cDeg_of_ne m ρ c main_arg2 (by decide))

theorem cOut_main_arg2 (c : Dev nD) : cOut m ρ c (Proc.devRef .tc main_arg2) = m ((c : Thread nD τ).loc main_arg2) :=
  (cOut_arr m ρ c 3).trans ((((dat1 (rScaled m ρ) c).arrAt_in 3 rfl _).trans (A_eq1 (rScaled m ρ) c 3)).trans
    (cScaled_main_arg2 m ρ c))

/-! ## The proof data of both pipelines, and what rides beside the buffers -/

/-- No pallas_call has a prefetched table. -/
abbrev noTables : (p : Fin 2) → (pcfgs (F := F) p).Adm := fun p => (cfgs p).toPCfg_adm

/-- Each pipeline's proof data at the contents its region is entered from. -/
def pdats : (p : Fin 2) → (c : Dev nD) → Dat τ (Elt F) Unit ℕ (UR sig nD τ) ℕ (Pipeline.pin (pcfgs (F := F)) noTables p) c
  | ⟨0, _⟩ => fun c => dat0 (rLaunch m ρ) c
  | ⟨1, _⟩ => fun c => dat1 (rScaled m ρ) c

abbrev noVariants : Variants := Variants.none
/-- No core waits for another: no level is assigned. -/
abbrev noLevels : GSem nD τ sig → Finset Unit := fun _ => ∅
abbrev levelOf : GSem nD τ sig → Unit → ℕ := fun _ _ => 0

/-- Beside the buffers, through every segment: the core's generator register at some state, and the core owing nothing. -/
abbrev beside (c : Dev nD) : sProp 𝕄 :=
  iprop((∃ r, prngReg c r) ∗ ∃ W, owes (c : Thread nD τ) (0 : CellTallies nD τ sig Unit) W)

theorem hostOps1_allocates_nothing : (hostOps1 : List (HloOp τ sig (Elt F))).Forall fun op => op.fresh = ∅ := by
  simp only [List.Forall]; repeat' constructor

/-- The host stretch as a segment from the contents `cDeg`. -/
abbrev scaleSeg : Pipeline.HostSeg (Name := ℕ) (U := UR sig nD τ) (pcfgs (F := F)) defs₀ noVariants noLevels levelOf :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_allocates_nothing) op h) (cDeg m ρ) beside

/-- The last thread state, without the `owes`. -/
abbrev atEnd (c : Dev nD) : sProp 𝕄 :=
  iprop(StableHlo.held (c : Thread nD τ) (Pipeline.ucRefs τ sig) (cOut m ρ c) ∗ ∃ r, prngReg c r)

/-! ## The two regions as segments -/

set_option backward.isDefEq.respectTransparency.types false in
/-- The degree region: entered from every unscoped buffer as launched, left with them at `cDeg`. Its arrays are
    split out of the unscoped buffers and put back at their final contents; the generator register goes into the
    region's invariant and comes back; nothing is owed; the kernel has no semaphore of its own. -/
def degRegion : Pipeline.RegionSeg (pcfgs (F := F)) noTables (pdats m ρ) () defs₀ noVariants noLevels levelOf 0 where
  win := launch0.win.to₀
  block_pos := launch0.block_pos
  stage_whole := launch0.stage_whole
  K := PEmpty
  osem k := k.elim
  ho := Pipeline.OwnSemFacts.none _
  hbody c := (body_obligation0 (rLaunch m ρ) c).loose
  hwaits := Pipeline.hwaits_of_owed_zero _ _ _ _ noLevels levelOf 0 fun _ _ => rfl
  pre c := iprop(StableHlo.held (c : Thread nD τ) (Pipeline.ucRefs τ sig) (cLaunch m ρ c) ∗ beside c)
  post c := iprop(StableHlo.held (c : Thread nD τ) (Pipeline.ucRefs τ sig) (cDeg m ρ c) ∗ beside c)
  X c := iprop(∃ r, prngReg c r)
  Y c := iprop(∃ r, prngReg c r)
  Z c := Pipeline.unscopedRest (Ix := Unit) (Name := ℕ) (U := UR sig nD τ) (Lvl := ℕ) spec0 c (rLaunch m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (rLaunch m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (rLaunch m ρ c) (rDeg m ρ c) ((pdats m ρ 0 c).arrAt · cfg0.N) (deg_arrays m ρ c) (deg_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The layer region: entered from the contents after the host stretch, left with every unscoped buffer at `cOut`. The
    region's invariant starts as the class's (every scratch at anything) and ends giving that back: between points it
    tracks the accumulator scratch. -/
def layerRegion : Pipeline.RegionSeg (pcfgs (F := F)) noTables (pdats m ρ) () defs₀ noVariants noLevels levelOf 1 where
  win := launch1.win.to₀
  block_pos := launch1.block_pos
  stage_whole := launch1.stage_whole
  K := PEmpty
  osem k := k.elim
  ho := Pipeline.OwnSemFacts.none _
  hbody c := (body_obligation1 (rScaled m ρ) c).loose
  hwaits := Pipeline.hwaits_of_owed_zero _ _ _ _ noLevels levelOf 1 fun _ _ => rfl
  pre c := iprop(StableHlo.held (c : Thread nD τ) (Pipeline.ucRefs τ sig) (cScaled m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (rScaled m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (rScaled m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (rScaled m ρ) c
    unfold Pipeline.ΦA at h
    rw [show (pdats m ρ 1 c).Φ 0 = (dat1 (rScaled m ρ) c).Φ 0 from rfl]
    iintro ⟨Hp, -, Hr⟩
    iapply h
    isplitl [Hr]; · iexact Hr
    iexact Hp
  hout c := by
    have h := hout1 (rScaled m ρ) c
    unfold Pipeline.ΦA at h
    rw [Pipeline.ownSems0_none, show (pdats m ρ 1 c).Φ (Fin.last _) = (dat1 (rScaled m ρ) c).Φ (Fin.last cfg1.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (rScaled m ρ c) (rOut m ρ c) ((pdats m ρ 1 c).arrAt · cfg1.N) (out_arrays m ρ c) (out_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as three segments, and the launch -/

abbrev segments : List (Pipeline.Seg (pcfgs (F := F)) noTables (pdats m ρ) () defs₀ noVariants noLevels levelOf) :=
  [ .region (degRegion m ρ), .host (scaleSeg m ρ), .region (layerRegion m ρ) ]

theorem main_is_segments (c : Dev nD) : main (F := F) c = Pipeline.Seg.run (segments m ρ) :=
  (main_chain c).trans (by chain_rfl)

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and
    in every final state each unscoped buffer of each core holds the last fold `cOut`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = cOut m ρ c b) :=
  Pipeline.θ_run_regions_kit (pcfgs (F := F)) noTables (pdats m ρ) () cellOf_inj emb₁ defs₀ noVariants noLevels levelOf m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (cLaunch m ρ c) ∗ beside c)) (Tₙ := atEnd m ρ)
    (hch := ⟨fun _ => .rfl, fun _ => .rfl, fun _ => .rfl, fun _ => .rfl⟩)
    (hinit := by
      refine Pipeline.initEach noLevels levelOf fun c => ?_
      rw [show unscopedBufs c (fun b => m ((c : Thread nD τ).loc b)) = StableHlo.held (c : Thread nD τ) (Pipeline.ucRefs τ sig) (cLaunch m ρ c)
        from Pipeline.unscopedBufs_held c (cLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = cOut m ρ c b)
    (hfin := fun c s' => by
      iintro ⟨⟨Hh, -⟩, HSI⟩
      unfold StableHlo.held
      imodintro
      iapply (pointsTo_read_all (Pipeline.ucRefs τ sig) (fun b => (((c : Thread nD τ)).1, b)) (cOut m ρ c) s')
      isplitl [Hh] <;> iassumption)
    (hQ := fun s h c => h c)

/-- THE FRAME, at any instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_unscoped main_arg0 (by decide))).trans (cOut_main_arg0 m ρ c),
     (h c _ (mem_unscoped main_arg1 (by decide))).trans (cOut_main_arg1 m ρ c),
     (h c _ (mem_unscoped main_arg2 (by decide))).trans (cOut_main_arg2 m ρ c)⟩) (run_all m ρ)

end Run

end Cert.KernelIdeal.Hand

end
-- ==== Proof.Spec.lean ====
/-
  The mathematics of the graph-convolution layer, index by index, on the extended reals.

  `A` is the 8192×8192 adjacency array, `X` the 8192×128 feature array, `W` the 128×64 weight array.
  The degree of row `i` is the row sum `deg A i = ∑ j, A i j`.

  * One program first turns each degree into a GUARDED reciprocal square root, `scaleK A i` (the
    reciprocal square root where the degree is positive, zero elsewhere), scales the rows of `X` by it,
    multiplies by `A`, scales row `i` of the product by `scaleK A i` again, multiplies by `W` and clamps
    at zero: `GK`.
  * The other forms `scaleR A i = 1 / √(deg A i)`, the normalised matrix
    `(scaleR A i · A i j) · scaleR A j`, multiplies it by `X`, then by `W`, and clamps at zero: `GR`.

  Where every entry of `A` and `X` is a real number and every degree is positive the two scales are the
  same positive real and the two results agree by distributivity of the reals.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

abbrev SA : Shape := ⟨2, ![8192, 8192]⟩
abbrev SX : Shape := ⟨2, ![8192, 128]⟩
abbrev SW : Shape := ⟨2, ![128, 64]⟩
abbrev SO : Shape := ⟨2, ![8192, 64]⟩
abbrev SD : Shape := ⟨2, ![8192, 1]⟩

/-- The degree of row `i`: the sum of the row's entries. -/
def deg (A : SA.Idx → EReal) (i : Fin 8192) : EReal := ∑ j : Fin 8192, A (ix2 i j)

/-- The guarded scale of row `i`: the reciprocal square root of the degree where the degree is
    positive, zero elsewhere. -/
def scaleK (A : SA.Idx → EReal) (i : Fin 8192) : EReal :=
  Scalar.select (Ideal.cmp .ogt (deg A i) 0) (Ideal.rsqrt (deg A i)) 0

/-- The column of guarded scales, as an 8192×1 array. -/
def scaleCol (A : SA.Idx → EReal) : SD.Idx → EReal := fun y => scaleK A (y 0)

/-- The features with row `j` scaled by the guarded scale of row `j`. -/
def scaledX (X : SX.Idx → EReal) (A : SA.Idx → EReal) : SX.Idx → EReal :=
  fun y => X y * scaleK A (y 0)

/-- `A` times the scaled features, entry `(i, d)`. -/
def accK (X : SX.Idx → EReal) (A : SA.Idx → EReal) (i : Fin 8192) (d : Fin 128) : EReal :=
  ∑ j : Fin 8192, A (ix2 i j) * (X (ix2 j d) * scaleK A j)

/-- The last stage alone, from whatever arrays it is handed: `A` times a feature array `Xs`, row `i` of the
    product scaled by the entry `D i 0` of a column `D`, times `W`, clamped at zero. -/
def layerOf (Xs : SX.Idx → EReal) (A : SA.Idx → EReal) (D : SD.Idx → EReal) (W : SW.Idx → EReal) : SO.Idx → EReal :=
  fun y => max (∑ d : Fin 128,
      ((∑ j : Fin 8192, A (ix2 (y 0) j) * Xs (ix2 j d)) * D (ix2 (y 0) 0)) * W (ix2 d (y 1))) 0

/-- The layer computed with the guarded scales applied to the features first and to the product's rows
    afterwards. -/
def GK (X : SX.Idx → EReal) (A : SA.Idx → EReal) (W : SW.Idx → EReal) : SO.Idx → EReal :=
  fun y => max (∑ d : Fin 128, (accK X A (y 0) d * scaleK A (y 0)) * W (ix2 d (y 1))) 0

/-- The unguarded scale of row `i`: one over the square root of the degree. -/
def scaleR (A : SA.Idx → EReal) (i : Fin 8192) : EReal := Ideal.div 1 (Ideal.sqrt (deg A i))

/-- The layer computed through the normalised adjacency matrix. -/
def GR (X : SX.Idx → EReal) (A : SA.Idx → EReal) (W : SW.Idx → EReal) : SO.Idx → EReal :=
  fun y => max (∑ d : Fin 128,
      (∑ j : Fin 8192, ((scaleR A (y 0) * A (ix2 (y 0) j)) * scaleR A j) * X (ix2 j d)) * W (ix2 d (y 1))) 0

/-- The guarded-scale form of the layer is the last stage applied to the scaled features and the column of
    guarded scales. -/
theorem GK_eq_layerOf (X : SX.Idx → EReal) (A : SA.Idx → EReal) (W : SW.Idx → EReal) :
    GK X A W = layerOf (scaledX X A) A (scaleCol A) W := rfl

end Cert.GcnSpec

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.KI.R0Value.lean ====
/-
  What the degree region leaves in its output array, on the extended reals.

  The region walks 16 points t = 2 i + k over the 8192 x 8192 adjacency array A in blocks of 1024 rows by 4096
  columns and keeps, for row block i, a 1024 x 1 column.  The even point (k = 0) resets the column and adds the
  sums of the first halves of its rows; the odd point (k = 1) adds the sums of the second halves and replaces each
  entry d by 1 / √d where d > 0 and by 0 elsewhere, and only then is the column written back, as block i of the
  8192 x 1 output.  Row r of that block is therefore the guarded scale of row 1024 i + r of A: the two half-row
  sums are the row's degree, since 8192 = 4096 + 4096.  The eight blocks written back at the odd points tile the
  output, so the region leaves the whole column of guarded scales.
-/
import proofs.«179531_j47261820125198_2_alg».proof.Proof.KI.R0Frame
import proofs.«179531_j47261820125198_2_alg».proof.Proof.Spec
import proofs.«179531_j47261820125198_2_alg».proof.Proof.LibLayout
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-! ## The body's three named values at a row, on the extended reals -/

/-- The column the reset stores is zero at every row. -/
theorem pay1_apply (r : Fin 1024) : k0_pay1 (F := Ideal) (ix2 r (0 : Fin 1)) = 0 := by
  show Ideal.ofBits .f32 0x00000000#32 = 0
  exact Ideal.ofBits_zero_f32

/-- The accumulation at row r: the column's entry plus the sum of row r of the block (the lane sum, re-read as a
    column). -/
theorem pay2_apply (p : Vec Ideal S1024x1 .f32) (x : Vec Ideal S1024x4096 .f32) (r : Fin 1024) :
    k0_pay2 (F := Ideal) p x (ix2 r (0 : Fin 1)) = p (ix2 r (0 : Fin 1)) + ∑ q : Fin 4096, x (ix2 r q) := by
  unfold k0_pay2
  show (shapeCast S1024x1 p shapeCasts_S1024x1_S1024x1) (ix2 r (0 : Fin 1))
      + (shapeCast S1024x1 (multiReduction (F := Ideal) .add [1] S1024 x 0x00000000#32 reduces_S1024x4096_S1024 (.inl rfl) rfl) shapeCasts_S1024_S1024x1) (ix2 r (0 : Fin 1)) = _
  refine congrArg₂ (· + ·) ?_ ?_
  · exact congrFun (shapeCast_self p shapeCasts_S1024x1_S1024x1) _
  · refine (Cert.LibLayout.shapeCast_a_a1_apply _ shapeCasts_S1024_S1024x1 r (0 : Fin 1)).trans ?_
    exact Cert.LibLayout.lane_sum_apply x _ reduces_S1024x4096_S1024 (.inl rfl) rfl r

/-- The finish at row r: the reciprocal square root of the column's entry where it is positive, zero elsewhere. -/
theorem pay3_apply (p : Vec Ideal S1024x1 .f32) (r : Fin 1024) :
    k0_pay3 (F := Ideal) p (ix2 r (0 : Fin 1))
      = Scalar.select (Ideal.cmp .ogt (p (ix2 r (0 : Fin 1))) 0) (Ideal.rsqrt (p (ix2 r (0 : Fin 1)))) 0 := by
  unfold k0_pay3
  have e : shapeCast S1024x1 p shapeCasts_S1024x1_S1024x1 = p := shapeCast_self p shapeCasts_S1024x1_S1024x1
  show Scalar.select (FloatOps.cmpf .ogt ((shapeCast S1024x1 p shapeCasts_S1024x1_S1024x1) (ix2 r (0 : Fin 1))) (Ideal.ofBits .f32 0x00000000#32))
      (FloatOps.rsqrt ((shapeCast S1024x1 p shapeCasts_S1024x1_S1024x1) (ix2 r (0 : Fin 1)))) (Ideal.ofBits .f32 0x00000000#32) = _
  rw [e, Ideal.ofBits_zero_f32]
  rfl

/-- Two half rows make a row.  If row r of the block xe is the first 4096 entries of row R of A and row r of the
    block xo the last 4096, then resetting, adding the row sums of xe, then of xo, and finishing leaves the guarded
    scale of row R: the two half-row sums are the degree, 8192 = 4096 + 4096. -/
theorem col_value (A : Cert.GcnSpec.SA.Idx → EReal) (R : Fin 8192) (xe xo : Vec Ideal S1024x4096 .f32) (r : Fin 1024)
    (he : ∀ q : Fin 4096, xe (ix2 r q) = A (ix2 R (⟨q.val, by omega⟩ : Fin 8192)))
    (ho : ∀ q : Fin 4096, xo (ix2 r q) = A (ix2 R (⟨4096 + q.val, by omega⟩ : Fin 8192))) :
    k0_pay3 (F := Ideal) (k0_pay2 (k0_pay2 k0_pay1 xe) xo) (ix2 r (0 : Fin 1)) = Cert.GcnSpec.scaleK A R := by
  have hsum : Cert.GcnSpec.deg A R = (0 + ∑ q : Fin 4096, xe (ix2 r q)) + ∑ q : Fin 4096, xo (ix2 r q) := by
    rw [zero_add]
    unfold Cert.GcnSpec.deg
    refine (Fin.sum_univ_add (a := 4096) (b := 4096) (fun j => A (ix2 R j))).trans ?_
    exact congrArg₂ (· + ·) (Finset.sum_congr rfl fun q _ => (he q).symm) (Finset.sum_congr rfl fun q _ => (ho q).symm)
  rw [pay3_apply, pay2_apply, pay2_apply, pay1_apply, ← hsum]
  rfl

/-! ## The blocks, where the windows' rectangles say -/

/-- The printed index maps over the 16 points t = 2 i + k: the input block is (i, k), the column block (i, 0),
    and the column's block is never cut. -/
theorem idx_facts0 : ∀ t : Fin cfg0.N, win0_0.index t (0 : Fin 2) = t.val / 2 ∧ win0_0.index t (1 : Fin 2) = t.val % 2
    ∧ win0_1.index t (0 : Fin 2) = t.val / 2 ∧ win0_1.index t (1 : Fin 2) = 0
    ∧ win0_1.xsize (grid0.coords t) (0 : Fin 2) = 1024 ∧ win0_1.xsize (grid0.coords t) (1 : Fin 2) = 1 :=
  (by decide +kernel : ∀ t : Fin grid0.N, _)

variable (V : (c : Dev nD) → (b : Ref sig .tc) → Buf (Elt Ideal) ((c : Thread nD τ).loc b))

/-- Entry (r, q) of the input block at point t = 2 i + k is entry (1024 i + r, 4096 k + q) of the adjacency array:
    a block's coordinate is its index times its size plus the coordinate inside the block. -/
theorem iblk0_apply (c : Dev nD) (t : Fin cfg0.N) (x : S1024x4096.Idx) (k : S8192x8192.Idx)
    (hk0 : (k 0).val = 1024 * (t.val / 2) + (x 0).val) (hk1 : (k 1).val = 4096 * (t.val % 2) + (x 1).val) :
    (iblk0 V c 0 t : Vec Ideal S1024x4096 .f32) x = (V c main_arg1 : S8192x8192.Idx → EReal) k := by
  obtain ⟨e0, e1, -⟩ := idx_facts0 t
  unfold iblk0
  rw [View.read_apply]
  show V c main_arg1 _ = V c main_arg1 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 4096 + 1 * (x 1).val = (k 1).val; rw [e1, hk1]; omega

/-- After an odd point t = 2 i + 1 the column holds, at row r, the guarded scale of row 1024 i + r of the adjacency
    array: the even point before summed the first half of that row, this point the second half. -/
theorem col_at (c : Dev nD) (t : Fin cfg0.N) (hodd : t.val % 2 = 1) (r : Fin 1024) (R : Fin 8192)
    (hR : R.val = 1024 * (t.val / 2) + r.val) :
    (outsAt0 (F := Ideal) V c t.val t.isLt) (ix2 r (0 : Fin 1)) = Cert.GcnSpec.scaleK (V c main_arg1) R := by
  have hlt : t.val - 1 < cfg0.N := Nat.lt_of_le_of_lt (Nat.sub_le _ _) t.isLt
  have hev : outsAt0 (F := Ideal) V c (t.val - 1) hlt = k0_pay2 (k0_pay1 (F := Ideal)) (iblk0 V c 0 ⟨t.val - 1, hlt⟩) :=
    outsAt0_even V c ⟨t.val - 1, hlt⟩ (by show (t.val - 1) % 2 = 0; omega)
  rw [outsAt0_odd V c t hodd, hev]
  refine col_value (V c main_arg1) R (iblk0 V c 0 ⟨t.val - 1, hlt⟩) (iblk0 V c 0 t) r (fun q => ?_) (fun q => ?_)
  · refine iblk0_apply V c ⟨t.val - 1, hlt⟩ (ix2 r q) (ix2 R (⟨q.val, by omega⟩ : Fin 8192)) ?_ ?_
    · show R.val = 1024 * ((t.val - 1) / 2) + r.val; omega
    · show q.val = 4096 * ((t.val - 1) % 2) + q.val; omega
  · refine iblk0_apply V c t (ix2 r q) (ix2 R (⟨4096 + q.val, by omega⟩ : Fin 8192)) ?_ ?_
    · show R.val = 1024 * (t.val / 2) + r.val; omega
    · show 4096 + q.val = 4096 * (t.val % 2) + q.val; omega

/-! ## From the blocks to the array -/

/-- What an odd point writes back is its block of the column of guarded scales. -/
theorem flushed_eq0 (c : Dev nD) (t : Fin cfg0.N) (hf : (cfg0.win 1).flush t = true) :
    (dat0 (F := Ideal) V c).flushed 1 t = ((cfg0.win 1).blk t).view.read (Elt Ideal) (Cert.GcnSpec.scaleCol (V c main_arg1)) := by
  have hodd : t.val % 2 = 1 := (flush0_1 t).mp hf
  have hN : t.val < 16 := lt_of_lt_of_eq t.isLt (show cfg0.N = 16 from N_0)
  obtain ⟨-, -, e2, e3, -⟩ := idx_facts0 t
  show (cfg0.win 1).cut (grid0.coords t) ((dat0 V c).after 1 t) = _
  rw [after0_1]
  funext j
  have hj0 : (j 0).val < 1024 := (j 0).isLt
  have hj : j = ix2 (⟨(j 0).val, hj0⟩ : Fin 1024) (0 : Fin 1) := by
    funext a; apply Fin.ext
    match a with
    | ⟨0, _⟩ => rfl
    | ⟨1, _⟩ => show (j 1).val = 0; have : (j 1).val < 1 := (j 1).isLt; omega
  show (outsAt0 (F := Ideal) V c t.val t.isLt) j = Cert.GcnSpec.scaleK (V c main_arg1) ((((cfg0.win 1).blk t).view.emb j) 0)
  have hR : ((((cfg0.win 1).blk t).view.emb j) 0).val = 1024 * (t.val / 2) + (j 0).val := by
    show win0_1.index t (0 : Fin 2) * 1024 + 1 * (j 0).val = _; rw [e2]; omega
  have hlt : 1024 * (t.val / 2) + (j 0).val < 8192 := by omega
  rw [show ((((cfg0.win 1).blk t).view.emb j) 0) = (⟨1024 * (t.val / 2) + (j 0).val, hlt⟩ : Fin 8192) from Fin.ext hR]
  exact (congrArg (outsAt0 (F := Ideal) V c t.val t.isLt) hj).trans
    (col_at V c t hodd ⟨(j 0).val, hj0⟩ ⟨1024 * (t.val / 2) + (j 0).val, hlt⟩ rfl)

/-- Every row of the 8192 x 1 array lies in the block some odd point writes back: row R in that of t = 2 (R / 1024) + 1. -/
theorem cover0 (i : S8192x1.Idx) : ∃ t : Fin cfg0.N, (cfg0.win 1).flush t = true ∧ i ∈ ((cfg0.win 1).blk t).view.set := by
  have h0 : (i 0).val < 8192 := (i 0).isLt
  have h1 : (i 1).val < 1 := (i 1).isLt
  have hN : cfg0.N = 16 := N_0
  let t : Fin cfg0.N := ⟨2 * ((i 0).val / 1024) + 1, by rw [hN]; omega⟩
  have ht : t.val = 2 * ((i 0).val / 1024) + 1 := rfl
  obtain ⟨-, -, e2, e3, s0, s1⟩ := idx_facts0 t
  refine ⟨t, (flush0_1 t).mpr (by rw [ht]; omega), ?_⟩
  show i ∈ ((View.whole main_v0).slice (win0_1.rect t)).set
  rw [View.set_slice_whole, Rect.mem_set_unit]
  intro a
  match a with
  | ⟨0, _⟩ =>
    show win0_1.index t (0 : Fin 2) * 1024 ≤ (i 0).val ∧ (i 0).val < win0_1.index t (0 : Fin 2) * 1024 + win0_1.xsize (grid0.coords t) (0 : Fin 2)
    rw [e2, s0, ht]; omega
  | ⟨1, _⟩ =>
    show win0_1.index t (1 : Fin 2) * 1 ≤ (i 1).val ∧ (i 1).val < win0_1.index t (1 : Fin 2) * 1 + win0_1.xsize (grid0.coords t) (1 : Fin 2)
    rw [e3, s1]; omega

/-- THE DEGREE REGION'S RESULT: whatever the buffers hold when the region is entered, it leaves in its output array
    the column of guarded scales of the adjacency array found there. -/
theorem arr0_final (c : Dev nD) : (dat0 (F := Ideal) V c).arrAt 1 cfg0.N = Cert.GcnSpec.scaleCol (V c main_arg1) :=
  (dat0 (F := Ideal) V c).arrAt_eq_of_cover 1 (Cert.GcnSpec.scaleCol (V c main_arg1)) (flushed_eq0 V c) cover0

end Cert.KernelIdeal.Hand

end
-- ==== Proof.KI.R1Read.lean ====
import proofs.«179531_j47261820125198_2_alg».proof.Proof.KI.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: what its buffers hold, as the kernel's payloads -/

variable (V : (c : Dev nD) → (b : Ref sig .tc) → Buf (Elt F) ((c : Thread nD τ).loc b))

/-! ## The found pieces, read back as the kernel's payloads

Every store of the body goes through the whole-buffer rectangle at zero offsets, so what a buffer holds after the
body is the payload of the last store into it; a whole-buffer load reads the contents, and the load of the slice of
the scaled features reads them through its rectangle `rX1`. -/

theorem zero2 : (![0, 0] : Fin 2 → Nat) = fun _ => 0 := funext fun a => by fin_cases a <;> rfl

/-- `k = 0`: the accumulator ends at the zero fill plus the first partial product. -/
theorem sout1_A_0_eq (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S8192x128 .f32) (x2 : Vec F S1024x1 .f32) (x3 : Vec F S128x64 .f32) :
    sout1_A_0 c i arg2 harg2 arg3 harg3 arg4 harg4 arg5 harg5 arg6 harg6 arg7 harg7 hc0 hc1 x0 x1 x2 x3 = k1_pay2 (View.ld x1 (rX1 i)) x0 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_run_names
  rw [View.canon_cons_unit_zero (S := S1024x128) zero2, View.readCov_unit_zero (S := S1024x128) _ zero2]
  simp only [View.readAt_eq_ld, harg2.read_unread, harg3.read_unread, View.ld_unit_zero (S := S1024x2048) zero2]
  try rfl

/-- `k = 1, 2`: the accumulator ends at what it held plus one more partial product. -/
theorem sout1_B_0_eq (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S8192x128 .f32) (x2 : Vec F S1024x1 .f32) (x3 : Vec F S128x64 .f32) (xs0 : Vec F S1024x128 .f32) :
    sout1_B_0 c i arg2 harg2 arg3 harg3 arg4 harg4 arg5 harg5 arg6 harg6 arg7 harg7 hc0 hc1 x0 x1 x2 x3 xs0 = k1_pay2 (View.ld x1 (rX1 i)) x0 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_run_names
  rw [View.canon_unit_zero (S := S1024x128) zero2]
  simp only [View.readAt_eq_ld, harg2.read_unread, harg3.read_unread, harg7.read_unread, View.ld_unit_zero (S := S1024x2048) zero2, View.ld_unit_zero (S := S1024x128) zero2]
  try rfl

/-- `k = 3`: the same update of the accumulator, -/
theorem sout1_C_0_eq (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) :
    sout1_C_0 c i arg2 harg2 arg3 harg3 arg4 harg4 arg5 harg5 arg6 harg6 arg7 harg7 hc0 hc1 x0 x1 x2 x3 xs0 = k1_pay2 (View.ld x1 (rX1 i)) x0 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_run_names
  rw [View.canon_unit_zero (S := S1024x128) zero2]
  simp only [View.readAt_eq_ld, harg2.read_unread, harg3.read_unread, harg7.read_unread, View.ld_unit_zero (S := S1024x2048) zero2, View.ld_unit_zero (S := S1024x128) zero2]
  try rfl

/-- and the output block computed from the updated accumulator, the row scales and the weights. -/
theorem out1_C_4_eq (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S128x64 .f32) (harg5 : arg5.IsWhole) (arg6 : Memref sig .tc .vmem S1024x64 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S8192x128 .f32) (x2 : Vec F S1024x1 .f32) (x3 : Vec F S128x64 .f32) (xs0 : Vec F S1024x128 .f32) :
    out1_C_4 c i arg2 harg2 arg3 harg3 arg4 harg4 arg5 harg5 arg6 harg6 arg7 harg7 hc0 hc1 x0 x1 x2 x3 xs0 = k1_pay3 (k1_pay2 (View.ld x1 (rX1 i)) x0 xs0) x2 x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_run_names
  rw [View.canon_unit_zero (S := S1024x64) zero2, View.readCov_unit_zero (S := S1024x128) _ zero2]
  simp only [View.readAt_eq_ld, harg2.read_unread, harg3.read_unread, harg4.read_unread, harg5.read_unread, harg7.read_unread, View.ld_unit_zero (S := S1024x2048) zero2, View.ld_unit_zero (S := S1024x128) zero2, View.ld_unit_zero (S := S1024x1) zero2, View.ld_unit_zero (S := S128x64) zero2]
  try rfl

/-- The accumulator after a point with `k = 0`. -/
theorem scratch1_A (c : Dev nD) (t : Fin cfg1.N) (h : t.val % 4 = 0) :
    (outsAt1 V c t.val t.isLt).2 = k1_pay2 (View.ld (S := S8192x128) (e' := .f32) (Val := Elt F) (iblk1 V c 1 t) (rX1 (grid1.coords t))) (iblk1 V c 0 t) (k1_pay1 (F := F)) := by
  have h1 : ¬t.val % 4 = 3 := by omega
  rw [outsAt1_A V c t h h1]
  dsimp only
  exact sout1_A_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h) (fun h => h1 ((hcond1_1 t).mp h)) (iblk1 V c 0 t) (iblk1 V c 1 t) (iblk1 V c 2 t) (iblk1 V c 3 t)

/-- The accumulator after a point with `k ≠ 0`, over what the point before left in it. -/
theorem scratch1_BC (c : Dev nD) (t : Fin cfg1.N) (h : t.val % 4 ≠ 0) :
    (outsAt1 V c t.val t.isLt).2 = k1_pay2 (View.ld (S := S8192x128) (e' := .f32) (Val := Elt F) (iblk1 V c 1 t) (rX1 (grid1.coords t))) (iblk1 V c 0 t) (outsAt1 V c (t.val - 1) (Nat.lt_of_le_of_lt (Nat.sub_le _ _) t.isLt)).2 := by
  have h0 : ¬t.val % 4 = 0 := h
  by_cases h1 : t.val % 4 = 3
  · rw [outsAt1_C V c t h0 h1]
    dsimp only
    exact sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2
  · rw [outsAt1_B V c t h0 h1]
    dsimp only
    exact sout1_B_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

/-- The output's buffer after a point with `k = 3`, from the accumulator after that point. -/
theorem out1_C (c : Dev nD) (t : Fin cfg1.N) (h : t.val % 4 = 3) :
    (outsAt1 V c t.val t.isLt).1 = k1_pay3 (outsAt1 V c t.val t.isLt).2 (iblk1 V c 2 t) (iblk1 V c 3 t) := by
  have h0 : ¬t.val % 4 = 0 := by omega
  rw [outsAt1_C V c t h0 h]
  dsimp only
  rw [out1_C_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h) (iblk1 V c 0 t) (iblk1 V c 1 t) (iblk1 V c 2 t) (iblk1 V c 3 t) (outsAt1 V c (t.val - 1) (Nat.lt_of_le_of_lt (Nat.sub_le _ _) t.isLt)).2,
    sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h) (iblk1 V c 0 t) (iblk1 V c 1 t) (iblk1 V c 2 t) (iblk1 V c 3 t) (outsAt1 V c (t.val - 1) (Nat.lt_of_le_of_lt (Nat.sub_le _ _) t.isLt)).2]

end Cert.KernelIdeal.Hand

end
-- ==== Proof.KI.R1Math.lean ====
/-
  The arithmetic of the second region, read at an index.

  The region keeps a 1024×128 accumulator.  It is cleared to zero, then at each of four steps the product of a
  1024×2048 block of the adjacency array with the matching 2048 rows of the scaled features is added to it, and
  after the last step the rows of the accumulator are scaled by a 1024×1 column, multiplied by the 128×64
  weights and clamped at zero.  On the extended reals the change of float format before each product is the
  identity and a product into a zero array is the plain sum over the contracted axis, so each of these three
  values is an explicit finite sum at every index.  The last part says that four consecutive blocks of 2048
  (or two of 4096) indices exhaust `Fin 8192`, so the four partial sums add up to the whole row sum.
-/
import proofs.«179531_j47261820125198_2_alg».proof.Proof.Gen.KernelIdeal.Skeleton
import proofs.«179531_j47261820125198_2_alg».proof.Proof.Spec
import proofs.«179531_j47261820125198_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1Math

open Cert.KernelIdeal Cert.KernelIdeal.Gen Idealize.ShloMosaic Idealize.ShloMosaic.ValueIdx

/-! ## The two products, at an index -/

/-- The dimension numbers of the product of a 1024×2048 block with a 2048×128 block. -/
abbrev DA : DotDims S1024x2048 S2048x128 S1024x128 := dot_S1024x2048_S2048x128_S1024x128_1_0_0_1_n_n
/-- The dimension numbers of the product of a 1024×128 block with the 128×64 weights. -/
abbrev DB : DotDims S1024x128 S128x64 S1024x64 := dot_S1024x128_S128x64_S1024x64_1_0_0_1_n_n

theorem lhsA_0 (i : S1024x128.Idx) (q : DA.contr.Idx) : (DA.lhsIdx i q 0).val = (i 0).val := by
  unfold DotDims.lhsIdx
  rw [dif_neg (show ¬(0 : Fin S1024x2048.rank) ∈ DA.lhsBatch by decide),
    dif_pos (show (0 : Fin S1024x2048.rank) ∈ DA.lhsNonContracting by decide)]
  rfl
theorem lhsA_1 (i : S1024x128.Idx) (q : DA.contr.Idx) : (DA.lhsIdx i q 1).val = (q ⟨0, by decide⟩).val :=
  DA.lhsIdx_val_of_single rfl i q
theorem rhsA_0 (i : S1024x128.Idx) (q : DA.contr.Idx) : (DA.rhsIdx i q 0).val = (q ⟨0, by decide⟩).val :=
  DA.rhsIdx_val_of_single rfl i q
theorem rhsA_1 (i : S1024x128.Idx) (q : DA.contr.Idx) : (DA.rhsIdx i q 1).val = (i 1).val := by
  unfold DotDims.rhsIdx
  rw [dif_neg (show ¬(1 : Fin S2048x128.rank) ∈ DA.rhsBatch by decide),
    dif_pos (show (1 : Fin S2048x128.rank) ∈ DA.rhsNonContracting by decide)]
  rfl

/-- Entry `(r, d)` of a 1024×2048 by 2048×128 product into the zero array: the sum over the 2048 inner indices. -/
theorem matmulA_at {φ₁ φ₂ : FTy} (l : FVec Ideal S1024x2048 φ₁) (rr : FVec Ideal S2048x128 φ₂) (r : Fin 1024) (d : Fin 128) :
    FloatOps.matmul DA none l rr (constant (F := Ideal) S1024x128 .f32 0x00000000#32) (ix2 r d)
      = ∑ q : Fin 2048, l (ix2 r q) * rr (ix2 q d) := by
  refine (Ideal.matmul_constant_zero_apply DA none l rr (ix2 r d)).trans ?_
  rw [← Equiv.sum_comp (contrEquiv1 DA 2048 rfl rfl).symm]
  refine Finset.sum_congr rfl fun k _ => ?_
  have hk := contrEquiv1_symm_val DA 2048 rfl rfl k
  have el : DA.lhsIdx (ix2 r d) ((contrEquiv1 DA 2048 rfl rfl).symm k) = ix2 r k := funext fun a => Fin.ext (by
    match a with
    | ⟨0, _⟩ => exact lhsA_0 _ _
    | ⟨1, _⟩ => exact (lhsA_1 _ _).trans hk)
  have er : DA.rhsIdx (ix2 r d) ((contrEquiv1 DA 2048 rfl rfl).symm k) = ix2 k d := funext fun a => Fin.ext (by
    match a with
    | ⟨0, _⟩ => exact (rhsA_0 _ _).trans hk
    | ⟨1, _⟩ => exact rhsA_1 _ _)
  rw [el, er]

theorem lhsB_0 (i : S1024x64.Idx) (q : DB.contr.Idx) : (DB.lhsIdx i q 0).val = (i 0).val := by
  unfold DotDims.lhsIdx
  rw [dif_neg (show ¬(0 : Fin S1024x128.rank) ∈ DB.lhsBatch by decide),
    dif_pos (show (0 : Fin S1024x128.rank) ∈ DB.lhsNonContracting by decide)]
  rfl
theorem lhsB_1 (i : S1024x64.Idx) (q : DB.contr.Idx) : (DB.lhsIdx i q 1).val = (q ⟨0, by decide⟩).val :=
  DB.lhsIdx_val_of_single rfl i q
theorem rhsB_0 (i : S1024x64.Idx) (q : DB.contr.Idx) : (DB.rhsIdx i q 0).val = (q ⟨0, by decide⟩).val :=
  DB.rhsIdx_val_of_single rfl i q
theorem rhsB_1 (i : S1024x64.Idx) (q : DB.contr.Idx) : (DB.rhsIdx i q 1).val = (i 1).val := by
  unfold DotDims.rhsIdx
  rw [dif_neg (show ¬(1 : Fin S128x64.rank) ∈ DB.rhsBatch by decide),
    dif_pos (show (1 : Fin S128x64.rank) ∈ DB.rhsNonContracting by decide)]
  rfl

/-- Entry `(r, e)` of a 1024×128 by 128×64 product into the zero array: the sum over the 128 inner indices. -/
theorem matmulB_at {φ₁ φ₂ : FTy} (l : FVec Ideal S1024x128 φ₁) (rr : FVec Ideal S128x64 φ₂) (r : Fin 1024) (e : Fin 64) :
    FloatOps.matmul DB none l rr (constant (F := Ideal) S1024x64 .f32 0x00000000#32) (ix2 r e)
      = ∑ d : Fin 128, l (ix2 r d) * rr (ix2 d e) := by
  refine (Ideal.matmul_constant_zero_apply DB none l rr (ix2 r e)).trans ?_
  rw [← Equiv.sum_comp (contrEquiv1 DB 128 rfl rfl).symm]
  refine Finset.sum_congr rfl fun k _ => ?_
  have hk := contrEquiv1_symm_val DB 128 rfl rfl k
  have el : DB.lhsIdx (ix2 r e) ((contrEquiv1 DB 128 rfl rfl).symm k) = ix2 r k := funext fun a => Fin.ext (by
    match a with
    | ⟨0, _⟩ => exact lhsB_0 _ _
    | ⟨1, _⟩ => exact (lhsB_1 _ _).trans hk)
  have er : DB.rhsIdx (ix2 r e) ((contrEquiv1 DB 128 rfl rfl).symm k) = ix2 k e := funext fun a => Fin.ext (by
    match a with
    | ⟨0, _⟩ => exact (rhsB_0 _ _).trans hk
    | ⟨1, _⟩ => exact rhsB_1 _ _)
  rw [el, er]

/-! ## The three stored values, at an index -/

/-- The cleared accumulator is zero everywhere. -/
theorem pay1_at (r : Fin 1024) (d : Fin 128) : k1_pay1 (F := Ideal) (ix2 r d) = 0 := by
  unfold k1_pay1
  rw [shapeCast_self]
  exact Ideal.ofBits_zero_f32

/-- One accumulation step: the accumulator plus the block product. -/
theorem pay2_at (v6 : Vec Ideal S2048x128 .f32) (v8 : Vec Ideal S1024x2048 .f32) (acc : Vec Ideal S1024x128 .f32)
    (r : Fin 1024) (d : Fin 128) :
    k1_pay2 v6 v8 acc (ix2 r d) = acc (ix2 r d) + ∑ q : Fin 2048, v8 (ix2 r q) * v6 (ix2 q d) := by
  unfold k1_pay2
  rw [shapeCast_self, shapeCast_self]
  refine congrArg (acc (ix2 r d) + ·) ?_
  exact matmulA_at _ _ r d

/-- The last stage: the accumulator's rows scaled by the column, times the weights, clamped at zero. -/
theorem pay3_at (s : Vec Ideal S1024x128 .f32) (dv : Vec Ideal S1024x1 .f32) (w : Vec Ideal S128x64 .f32)
    (r : Fin 1024) (e : Fin 64) :
    k1_pay3 s dv w (ix2 r e) = max (∑ d : Fin 128, (s (ix2 r d) * dv (ix2 r 0)) * w (ix2 d e)) 0 := by
  have hz : (Ideal.ofBits .f32 0x00000000#32 : EReal) = 0 := Ideal.ofBits_zero_f32
  unfold k1_pay3
  rw [shapeCast_self]
  refine (congrArg₂ max ?_ hz : max _ (Ideal.ofBits .f32 0x00000000#32) = _)
  refine (matmulB_at _ _ r e).trans ?_
  refine Finset.sum_congr rfl fun d _ => ?_
  refine congrArg (· * w (ix2 d e)) (congrArg (s (ix2 r d) * ·) ?_)
  exact Cert.LibLayout.broadcastTo_a1_ab_apply dv _ r d

/-! ## Consecutive blocks of indices exhaust `Fin 8192` -/

/-- A function on `Fin 8192` continued by zero to all natural numbers. -/
def ext (f : Fin 8192 → EReal) (n : ℕ) : EReal := if h : n < 8192 then f ⟨n, h⟩ else 0

theorem sum_eq_range (f : Fin 8192 → EReal) : ∑ j : Fin 8192, f j = ∑ n ∈ Finset.range 8192, ext f n := by
  rw [Finset.sum_range]
  refine Finset.sum_congr rfl fun j _ => ?_
  unfold ext
  rw [dif_pos j.isLt]

/-- The block of `b` indices starting at `c`. -/
theorem block_eq (f : Fin 8192 → EReal) (b c : ℕ) (hc : c + b ≤ 8192) :
    ∑ x ∈ Finset.range b, ext f (c + x) = ∑ q : Fin b, f ⟨c + q.val, by have := q.isLt; omega⟩ := by
  rw [Finset.sum_range]
  exact Finset.sum_congr rfl fun q _ => dif_pos _

/-- The sum over the first `b * k` indices. -/
def partialSum (f : Fin 8192 → EReal) (b k : ℕ) : EReal := ∑ n ∈ Finset.range (b * k), ext f n

theorem partialSum_zero (f : Fin 8192 → EReal) (b : ℕ) : partialSum f b 0 = 0 := by
  simp [partialSum]

/-- One more block of `b` indices. -/
theorem partialSum_succ (f : Fin 8192 → EReal) (b k : ℕ) (h : b * k + b ≤ 8192) :
    partialSum f b (k + 1) = partialSum f b k + ∑ q : Fin b, f ⟨b * k + q.val, by have := q.isLt; omega⟩ := by
  unfold partialSum
  rw [Nat.mul_succ, Finset.sum_range_add, block_eq f b (b * k) h]

/-- All the blocks together are the whole sum. -/
theorem partialSum_full (f : Fin 8192 → EReal) (b k : ℕ) (h : b * k = 8192) :
    partialSum f b k = ∑ j : Fin 8192, f j := by
  unfold partialSum
  rw [h, ← sum_eq_range]

/-- Four blocks of 2048. -/
theorem sum_four_blocks (f : Fin 8192 → EReal) :
    (((0 + ∑ q : Fin 2048, f ⟨q.val, by have := q.isLt; omega⟩)
        + ∑ q : Fin 2048, f ⟨2048 + q.val, by have := q.isLt; omega⟩)
        + ∑ q : Fin 2048, f ⟨4096 + q.val, by have := q.isLt; omega⟩)
        + ∑ q : Fin 2048, f ⟨6144 + q.val, by have := q.isLt; omega⟩
      = ∑ j : Fin 8192, f j := by
  have h3 : ∑ n ∈ Finset.range 8192, ext f n
      = ∑ n ∈ Finset.range 6144, ext f n + ∑ x ∈ Finset.range 2048, ext f (6144 + x) :=
    Finset.sum_range_add (ext f) 6144 2048
  have h2 : ∑ n ∈ Finset.range 6144, ext f n
      = ∑ n ∈ Finset.range 4096, ext f n + ∑ x ∈ Finset.range 2048, ext f (4096 + x) :=
    Finset.sum_range_add (ext f) 4096 2048
  have h1 : ∑ n ∈ Finset.range 4096, ext f n
      = ∑ n ∈ Finset.range 2048, ext f n + ∑ x ∈ Finset.range 2048, ext f (2048 + x) :=
    Finset.sum_range_add (ext f) 2048 2048
  have h0 : ∑ n ∈ Finset.range 2048, ext f n = ∑ q : Fin 2048, f ⟨q.val, by have := q.isLt; omega⟩ := by
    rw [Finset.sum_range]
    exact Finset.sum_congr rfl fun q _ => dif_pos _
  rw [sum_eq_range, h3, h2, h1, h0, block_eq f 2048 2048 (by omega), block_eq f 2048 4096 (by omega),
    block_eq f 2048 6144 (by omega), zero_add]

/-- Two blocks of 4096. -/
theorem sum_two_halves (f : Fin 8192 → EReal) :
    (0 + ∑ q : Fin 4096, f ⟨q.val, by have := q.isLt; omega⟩)
        + ∑ q : Fin 4096, f ⟨4096 + q.val, by have := q.isLt; omega⟩
      = ∑ j : Fin 8192, f j := by
  have h1 : ∑ n ∈ Finset.range 8192, ext f n
      = ∑ n ∈ Finset.range 4096, ext f n + ∑ x ∈ Finset.range 4096, ext f (4096 + x) :=
    Finset.sum_range_add (ext f) 4096 4096
  have h0 : ∑ n ∈ Finset.range 4096, ext f n = ∑ q : Fin 4096, f ⟨q.val, by have := q.isLt; omega⟩ := by
    rw [Finset.sum_range]
    exact Finset.sum_congr rfl fun q _ => dif_pos _
  rw [sum_eq_range, h1, h0, block_eq f 4096 4096 (by omega), zero_add]

end Cert.KernelIdeal.R1Math

end
-- ==== Proof.KI.R1Blocks.lean ====
/-
  Where the second region's windows sit in their arrays, on the extended reals.

  The grid is 8 x 4, the point t = 4 i + k.  Window 0 is the 1024 x 2048 block (i, k) of the adjacency array;
  window 1 is all of the scaled features (8192 x 128), of which the body loads rows 2048 k to 2048 k + 2047;
  window 2 is block (i, 0) of the 8192 x 1 column of scales; window 3 is all of the 128 x 64 weights; window 4,
  the output, is block (i, 0) of the 8192 x 64 result, written back at k = 3 only.  A block's coordinate is its
  index times its size plus the coordinate inside the block; the index maps are decided once over the 32 points.
  The eight output blocks written back at the points 4 i + 3 tile the result.
-/
import proofs.«179531_j47261820125198_2_alg».proof.Proof.KI.R1Frame
import proofs.«179531_j47261820125198_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-! ## The index maps over the grid -/

/-- The printed index maps over the 32 points t = 4 i + k: the adjacency block is (i, k); the scaled features and
    the weights are one block each; the column of scales and the output are at block (i, 0); the output's block is
    never cut; and the point's own coordinates are (i, k) = (t / 4, t % 4). -/
theorem idx_facts1 : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0
    ∧ win1_4.xsize (grid1.coords t) (0 : Fin 2) = 1024 ∧ win1_4.xsize (grid1.coords t) (1 : Fin 2) = 64
    ∧ ((grid1.coords t) 0).val = t.val / 4 ∧ ((grid1.coords t) 1).val = t.val % 4 :=
  (by decide +kernel : ∀ t : Fin grid1.N, _)

/-- The first row of the slice of the scaled features the body loads at point t = 4 i + k is row 2048 k. -/
theorem off1_at (t : Fin cfg1.N) : k1_off1 (grid1.coords t) = ![2048 * (t.val % 4), 0] := by
  obtain ⟨-, -, -, -, -, -, -, -, -, -, -, -, -, ek⟩ := idx_facts1 t
  rw [k1_off1_eq, ek]

/-! ## The slice of the scaled features the body loads -/

/-- Entry (q, d) of the 2048 x 128 slice loaded at grid coordinates i from a whole 8192 x 128 buffer x1 is the
    buffer's entry (2048 k + q, d), k the column coordinate of i. -/
theorem ld_rX1_apply (x1 : Vec Ideal S8192x128 .f32) (i : grid1.Coords) (q : Fin 2048) (d : Fin 128) (k : S8192x128.Idx)
    (hk0 : (k 0).val = 2048 * (i 1).val + q.val) (hk1 : (k 1).val = d.val) :
    View.ld (S := S8192x128) (e' := .f32) (Val := Elt Ideal) x1 (rX1 i) (ix2 q d) = x1 k := by
  show x1 ((rX1 i).idx (ix2 q d)) = x1 k
  congr 1
  funext a
  apply Fin.ext
  match a with
  | ⟨0, _⟩ =>
    show (k1_off1 i) (0 : Fin 2) + 1 * q.val = (k 0).val
    rw [k1_off1_eq i, hk0]
    show 2048 * (i 1).val + 1 * q.val = _
    omega
  | ⟨1, _⟩ =>
    show (k1_off1 i) (1 : Fin 2) + 1 * d.val = (k 1).val
    rw [k1_off1_eq i, hk1]
    show 0 + 1 * d.val = _
    omega

variable (V : (c : Dev nD) → (b : Ref sig .tc) → Buf (Elt Ideal) ((c : Thread nD τ).loc b))

/-! ## The blocks, where the windows' rectangles say -/

/-- Entry (r, q) of the adjacency block at point t = 4 i + k is entry (1024 i + r, 2048 k + q) of the adjacency array. -/
theorem iblk1_0_apply (c : Dev nD) (t : Fin cfg1.N) (x : S1024x2048.Idx) (k : S8192x8192.Idx)
    (hk0 : (k 0).val = 1024 * (t.val / 4) + (x 0).val) (hk1 : (k 1).val = 2048 * (t.val % 4) + (x 1).val) :
    (iblk1 V c 0 t : Vec Ideal S1024x2048 .f32) x = (V c main_arg1 : S8192x8192.Idx → EReal) k := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 1024 + 1 * (x 0).val = (k 0).val; rw [e0, hk0]; omega
  | ⟨1, _⟩ => show win1_0.index t (1 : Fin 2) * 2048 + 1 * (x 1).val = (k 1).val; rw [e1, hk1]; omega

/-- The window of the scaled features is the whole array at every point. -/
theorem iblk1_1_apply (c : Dev nD) (t : Fin cfg1.N) (x : S8192x128.Idx) :
    (iblk1 V c 1 t : Vec Ideal S8192x128 .f32) x = (V c main_v2 : S8192x128.Idx → EReal) x := by
  obtain ⟨-, -, e0, e1, -⟩ := idx_facts1 t
  unfold iblk1
  rw [View.read_apply]
  show V c main_v2 _ = V c main_v2 _
  congr 1
  funext a
  apply Fin.ext
  match a with
  | ⟨0, _⟩ => show win1_1.index t (0 : Fin 2) * 8192 + 1 * (x 0).val = (x 0).val; rw [e0]; omega
  | ⟨1, _⟩ => show win1_1.index t (1 : Fin 2) * 128 + 1 * (x 1).val = (x 1).val; rw [e1]; omega

/-- Entry (r, 0) of the block of scales at point t = 4 i + k is entry (1024 i + r, 0) of the column of scales. -/
theorem iblk1_2_apply (c : Dev nD) (t : Fin cfg1.N) (x : S1024x1.Idx) (k : S8192x1.Idx)
    (hk0 : (k 0).val = 1024 * (t.val / 4) + (x 0).val) :
    (iblk1 V c 2 t : Vec Ideal S1024x1 .f32) x = (V c main_v0 : S8192x1.Idx → EReal) k := by
  obtain ⟨-, -, -, -, e0, e1, -⟩ := idx_facts1 t
  unfold iblk1
  rw [View.read_apply]
  show V c main_v0 _ = V c main_v0 _
  congr 1
  funext a
  apply Fin.ext
  match a with
  | ⟨0, _⟩ => show win1_2.index t (0 : Fin 2) * 1024 + 1 * (x 0).val = (k 0).val; rw [e0, hk0]; omega
  | ⟨1, _⟩ =>
    show win1_2.index t (1 : Fin 2) * 1 + 1 * (x 1).val = (k 1).val
    have hx : (x 1).val < 1 := (x 1).isLt
    have hk : (k 1).val < 1 := (k 1).isLt
    rw [e1]; omega

/-- The window of the weights is the whole array at every point. -/
theorem iblk1_3_apply (c : Dev nD) (t : Fin cfg1.N) (x : S128x64.Idx) :
    (iblk1 V c 3 t : Vec Ideal S128x64 .f32) x = (V c main_arg2 : S128x64.Idx → EReal) x := by
  obtain ⟨-, -, -, -, -, -, e0, e1, -⟩ := idx_facts1 t
  unfold iblk1
  rw [View.read_apply]
  show V c main_arg2 _ = V c main_arg2 _
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 64 + 1 * (x 1).val = (x 1).val; rw [e1]; omega

/-- The slice the body loads at point t = 4 i + k from the window of the scaled features: entry (q, d) is entry
    (2048 k + q, d) of the scaled features as the region finds them. -/
theorem xslice_apply (c : Dev nD) (t : Fin cfg1.N) (q : Fin 2048) (d : Fin 128) (k : S8192x128.Idx)
    (hk0 : (k 0).val = 2048 * (t.val % 4) + q.val) (hk1 : (k 1).val = d.val) :
    View.ld (S := S8192x128) (e' := .f32) (Val := Elt Ideal) (iblk1 V c 1 t) (rX1 (grid1.coords t)) (ix2 q d)
      = (V c main_v2 : S8192x128.Idx → EReal) k := by
  obtain ⟨-, -, -, -, -, -, -, -, -, -, -, -, -, ek⟩ := idx_facts1 t
  refine (ld_rX1_apply (iblk1 V c 1 t) (grid1.coords t) q d k ?_ hk1).trans (iblk1_1_apply V c t k)
  rw [ek]; exact hk0

/-! ## The output's blocks tile the result -/

/-- Every entry of the 8192 x 64 result lies in the block some point with k = 3 writes back: row R in that of
    t = 4 (R / 1024) + 3. -/
theorem cover1 (i : S8192x64.Idx) : ∃ t : Fin cfg1.N, (cfg1.win 4).flush t = true ∧ i ∈ ((cfg1.win 4).blk t).view.set := by
  have h0 : (i 0).val < 8192 := (i 0).isLt
  have h1 : (i 1).val < 64 := (i 1).isLt
  have hN : cfg1.N = 32 := N_1
  let t : Fin cfg1.N := ⟨4 * ((i 0).val / 1024) + 3, by rw [hN]; omega⟩
  have ht : t.val = 4 * ((i 0).val / 1024) + 3 := rfl
  obtain ⟨-, -, -, -, -, -, -, -, e0, e1, s0, s1, -⟩ := idx_facts1 t
  refine ⟨t, (flush1_4 t).mpr (by rw [ht]; omega), ?_⟩
  show i ∈ ((View.whole main_v3).slice (win1_4.rect t)).set
  rw [View.set_slice_whole, Rect.mem_set_unit]
  intro a
  match a with
  | ⟨0, _⟩ =>
    show win1_4.index t (0 : Fin 2) * 1024 ≤ (i 0).val ∧ (i 0).val < win1_4.index t (0 : Fin 2) * 1024 + win1_4.xsize (grid1.coords t) (0 : Fin 2)
    rw [e0, s0, ht]; omega
  | ⟨1, _⟩ =>
    show win1_4.index t (1 : Fin 2) * 64 ≤ (i 1).val ∧ (i 1).val < win1_4.index t (1 : Fin 2) * 64 + win1_4.xsize (grid1.coords t) (1 : Fin 2)
    rw [e1, s1]; omega

end Cert.KernelIdeal.Hand

end
-- ==== Proof.KI.R1Value.lean ====
import proofs.«179531_j47261820125198_2_alg».proof.Proof.KI.R1Read
import proofs.«179531_j47261820125198_2_alg».proof.Proof.KI.R1Math
import proofs.«179531_j47261820125198_2_alg».proof.Proof.KI.R1Blocks
import proofs.«179531_j47261820125198_2_alg».proof.Proof.Spec
import proofs.«179531_j47261820125198_2_alg».proof.Proof.LibLayout
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.R1Math
open Idealize.ShloMosaic Idealize.ShloMosaic.TcCoe Idealize.ShloMosaic.ValueIdx
open Idealize.SL Idealize.SL.Sem
open Idealize.ShloMosaic.Pipeline (Dat Cfg Window)

/-! # The second pallas_call at the extended reals: the array it leaves

Block `(i, k)` of the grid adds to the accumulator the product of columns `2048 k … 2048 k + 2047` of rows
`1024 i … 1024 i + 1023` of `A` with the matching rows of the scaled features; after `k = 3` the accumulator
holds the whole product for those rows, and the output block is computed from it. -/

/-- One accumulation step at an entry: the accumulator held the sum of the first `k` column blocks of `f`, and the
    block product adds the next one. -/
theorem acc_step (v6 : Vec Ideal S2048x128 .f32) (v8 : Vec Ideal S1024x2048 .f32) (acc : Vec Ideal S1024x128 .f32)
    (f : Fin 8192 → EReal) (k : ℕ) (hk : 2048 * k + 2048 ≤ 8192) (r : Fin 1024) (d : Fin 128)
    (hacc : acc (ix2 r d) = partialSum f 2048 k)
    (hblk : ∀ q : Fin 2048, v8 (ix2 r q) * v6 (ix2 q d) = f ⟨2048 * k + q.val, by have := q.isLt; omega⟩) :
    k1_pay2 v6 v8 acc (ix2 r d) = partialSum f 2048 (k + 1) := by
  rw [pay2_at, hacc, partialSum_succ f 2048 k hk]
  exact congrArg _ (Finset.sum_congr rfl fun q _ => hblk q)

/-- The output entry from the finished accumulator: the accumulated row scaled, times the weights, clamped at zero. -/
theorem out_entry (s : Vec Ideal S1024x128 .f32) (dv : Vec Ideal S1024x1 .f32) (w : Vec Ideal S128x64 .f32)
    (Xs : Cert.GcnSpec.SX.Idx → EReal) (A : Cert.GcnSpec.SA.Idx → EReal) (D : Cert.GcnSpec.SD.Idx → EReal) (W : Cert.GcnSpec.SW.Idx → EReal)
    (n : Fin 8192) (r : Fin 1024) (e : Fin 64)
    (hs : ∀ d : Fin 128, s (ix2 r d) = ∑ j : Fin 8192, A (ix2 n j) * Xs (ix2 j d))
    (hd : dv (ix2 r 0) = D (ix2 n 0)) (hw : ∀ d : Fin 128, w (ix2 d e) = W (ix2 d e)) :
    k1_pay3 s dv w (ix2 r e) = Cert.GcnSpec.layerOf Xs A D W (ix2 n e) := by
  rw [pay3_at]
  show max _ 0 = max (∑ d : Fin 128, ((∑ j : Fin 8192, A (ix2 n j) * Xs (ix2 j d)) * D (ix2 n 0)) * W (ix2 d e)) 0
  refine congrArg (fun z => max z 0) (Finset.sum_congr rfl fun d _ => ?_)
  rw [hs d, hd, hw d]

variable (V : (c : Dev nD) → (b : Ref sig .tc) → Buf (Elt Ideal) ((c : Thread nD τ).loc b))

/-- The terms of entry `(R, d)` of the product of the adjacency array with the scaled features, as the region finds
    them, as a function of the summation index. -/
def prodTermOf (A : Cert.GcnSpec.SA.Idx → EReal) (Xs : Cert.GcnSpec.SX.Idx → EReal) (R : Fin 8192) (d : Fin 128) : Fin 8192 → EReal :=
  fun j => A (ix2 R j) * Xs (ix2 j d)

/-- The same at the arrays the region finds. -/
def prodTerm (c : Dev nD) (R : Fin 8192) (d : Fin 128) : Fin 8192 → EReal :=
  prodTermOf (V c main_arg1) (V c main_v2) R d

/-- At point `t = 4 i + k` the product of entry `(r, q)` of the adjacency block with entry `(q, d)` of the loaded
    slice of the scaled features is term `2048 k + q` of entry `(1024 i + r, d)` of the whole product. -/
theorem block_term (c : Dev nD) (t : Fin cfg1.N) (r : Fin 1024) (d : Fin 128) (R : Fin 8192)
    (hR : R.val = 1024 * (t.val / 4) + r.val) (v8 : Vec Ideal S1024x2048 .f32) (v6 : Vec Ideal S2048x128 .f32)
    (h8 : v8 = iblk1 V c 0 t) (h6 : v6 = View.ld (S := S8192x128) (e' := .f32) (Val := Elt Ideal) (iblk1 V c 1 t) (rX1 (grid1.coords t))) (q : Fin 2048) :
    v8 (ix2 r q) * v6 (ix2 q d)
      = prodTerm V c R d ⟨2048 * (t.val % 4) + q.val, by have := q.isLt; omega⟩ := by
  subst h8 h6
  have hJ : 2048 * (t.val % 4) + q.val < 8192 := by have := q.isLt; omega
  have e0 := iblk1_0_apply V c t (ix2 r q) (ix2 R (⟨2048 * (t.val % 4) + q.val, hJ⟩ : Fin 8192)) hR rfl
  have e1 := xslice_apply V c t q d (ix2 (⟨2048 * (t.val % 4) + q.val, hJ⟩ : Fin 8192) d) rfl rfl
  exact congrArg₂ (· * ·) e0 e1

/-- One point's update of the accumulator at an entry, given what the point before left there. -/
theorem scratch_step (c : Dev nD) (t : Fin cfg1.N) (r : Fin 1024) (d : Fin 128) (R : Fin 8192)
    (hR : R.val = 1024 * (t.val / 4) + r.val)
    (hprev : t.val % 4 ≠ 0 → (outsAt1 (F := Ideal) V c (t.val - 1) (Nat.lt_of_le_of_lt (Nat.sub_le _ _) t.isLt)).2 (ix2 r d)
      = partialSum (prodTerm V c R d) 2048 (t.val % 4)) :
    (outsAt1 (F := Ideal) V c t.val t.isLt).2 (ix2 r d) = partialSum (prodTerm V c R d) 2048 (t.val % 4 + 1) := by
  have hk : 2048 * (t.val % 4) + 2048 ≤ 8192 := by omega
  by_cases h : t.val % 4 = 0
  · refine (congrFun (scratch1_A V c t h) (ix2 r d)).trans ?_
    exact acc_step _ _ _ (prodTerm V c R d) (t.val % 4) hk r d
      ((pay1_at r d).trans (by rw [h]; exact (partialSum_zero _ _).symm)) (block_term V c t r d R hR _ _ rfl rfl)
  · refine (congrFun (scratch1_BC V c t h) (ix2 r d)).trans ?_
    exact acc_step _ _ _ (prodTerm V c R d) (t.val % 4) hk r d (hprev h) (block_term V c t r d R hR _ _ rfl rfl)

/-- After point `n = 4 i + k` the accumulator's entry `(r, d)` is the sum of the first `2048 (k + 1)` terms of entry
    `(1024 i + r, d)` of the product. -/
theorem scratch_at (c : Dev nD) : ∀ (n : ℕ) (hn : n < cfg1.N) (r : Fin 1024) (d : Fin 128) (R : Fin 8192)
    (hR : R.val = 1024 * (n / 4) + r.val),
    (outsAt1 (F := Ideal) V c n hn).2 (ix2 r d) = partialSum (prodTerm V c R d) 2048 (n % 4 + 1) := by
  intro n
  induction n with
  | zero =>
    intro hn r d R hR
    exact scratch_step V c ⟨0, hn⟩ r d R hR (fun h => absurd rfl h)
  | succ n ih =>
    intro hn r d R hR
    refine scratch_step V c ⟨n + 1, hn⟩ r d R hR (fun h => ?_)
    have h' : (n + 1) % 4 ≠ 0 := h
    have hk : (n + 1) % 4 = n % 4 + 1 := by omega
    have hd : (n + 1) / 4 = n / 4 := by omega
    show (outsAt1 (F := Ideal) V c n _).2 (ix2 r d) = partialSum (prodTerm V c R d) 2048 ((n + 1) % 4)
    rw [hk]
    exact ih (Nat.lt_of_succ_lt hn) r d R (by rw [hR, hd])

/-- The output block's entry at a point with `k = 3`. -/
theorem out_at (c : Dev nD) (t : Fin cfg1.N) (h3 : t.val % 4 = 3) (r : Fin 1024) (e : Fin 64) (R : Fin 8192)
    (hR : R.val = 1024 * (t.val / 4) + r.val) :
    (outsAt1 (F := Ideal) V c t.val t.isLt).1 (ix2 r e) = (Cert.GcnSpec.layerOf (V c main_v2) (V c main_arg1) (V c main_v0) (V c main_arg2)) (ix2 R e) := by
  refine (congrFun (out1_C V c t h3) (ix2 r e)).trans ?_
  refine out_entry _ _ _ (V c main_v2) (V c main_arg1) (V c main_v0) (V c main_arg2) R r e (fun d => ?_) ?_ (fun d => ?_)
  · refine (scratch_at V c t.val t.isLt r d R hR).trans ?_
    rw [h3]
    exact partialSum_full (prodTerm V c R d) 2048 4 rfl
  · exact iblk1_2_apply V c t (ix2 r (0 : Fin 1)) (ix2 R (0 : Fin 1)) hR
  · exact iblk1_3_apply V c t (ix2 d e)

/-! ## From the blocks to the array -/

/-- What a point with `k = 3` writes back is its block of the layer's result. -/
theorem flushed_eq1 (c : Dev nD) (t : Fin cfg1.N) (hf : (cfg1.win 4).flush t = true) :
    (dat1 (F := Ideal) V c).flushed 4 t = ((cfg1.win 4).blk t).view.read (Elt Ideal) (Cert.GcnSpec.layerOf (V c main_v2) (V c main_arg1) (V c main_v0) (V c main_arg2)) := by
  have h3 : t.val % 4 = 3 := (flush1_4 t).mp hf
  have hN : t.val < 32 := lt_of_lt_of_eq t.isLt (show cfg1.N = 32 from N_1)
  obtain ⟨-, -, -, -, -, -, -, -, e0, e1, -⟩ := idx_facts1 t
  show (cfg1.win 4).cut (grid1.coords t) ((dat1 V c).after 4 t) = _
  rw [after1_4]
  funext j
  have hj0 : (j 0).val < 1024 := (j 0).isLt
  have hj1 : (j 1).val < 64 := (j 1).isLt
  have hj : j = ix2 (⟨(j 0).val, hj0⟩ : Fin 1024) (⟨(j 1).val, hj1⟩ : Fin 64) := by
    funext a; apply Fin.ext
    match a with
    | ⟨0, _⟩ => rfl
    | ⟨1, _⟩ => rfl
  show (outsAt1 (F := Ideal) V c t.val t.isLt).1 j = (Cert.GcnSpec.layerOf (V c main_v2) (V c main_arg1) (V c main_v0) (V c main_arg2)) (((cfg1.win 4).blk t).view.emb j)
  have hR : ((((cfg1.win 4).blk t).view.emb j) 0).val = 1024 * (t.val / 4) + (j 0).val := by
    show win1_4.index t (0 : Fin 2) * 1024 + 1 * (j 0).val = _; rw [e0]; omega
  have hC : ((((cfg1.win 4).blk t).view.emb j) 1).val = (j 1).val := by
    show win1_4.index t (1 : Fin 2) * 64 + 1 * (j 1).val = _; rw [e1]; omega
  have hlt : 1024 * (t.val / 4) + (j 0).val < 8192 := by omega
  have hemb : ((cfg1.win 4).blk t).view.emb j = ix2 (⟨1024 * (t.val / 4) + (j 0).val, hlt⟩ : Fin 8192) (⟨(j 1).val, hj1⟩ : Fin 64) := by
    funext a; apply Fin.ext
    match a with
    | ⟨0, _⟩ => exact hR
    | ⟨1, _⟩ => exact hC
  rw [hemb]
  exact (congrArg (outsAt1 (F := Ideal) V c t.val t.isLt).1 hj).trans
    (out_at V c t h3 ⟨(j 0).val, hj0⟩ ⟨(j 1).val, hj1⟩ ⟨1024 * (t.val / 4) + (j 0).val, hlt⟩ rfl)

/-- THE LAYER REGION'S RESULT: whatever the buffers hold when the region is entered, it leaves in its output array
    the last stage of the layer applied to the arrays found there. -/
theorem arr1_final (V : (c : Dev nD) → (b : Ref sig .tc) → Buf (Elt Ideal) ((c : Thread nD τ).loc b)) (c : Dev nD) :
    (dat1 (F := Ideal) V c).arrAt 4 cfg1.N = Cert.GcnSpec.layerOf (V c main_v2) (V c main_arg1) (V c main_v0) (V c main_arg2) :=
  (dat1 (F := Ideal) V c).arrAt_eq_of_cover 4 (Cert.GcnSpec.layerOf (V c main_v2) (V c main_arg1) (V c main_v0) (V c main_arg2)) (flushed_eq1 V c) cover1

end Cert.KernelIdeal.Hand

end
-- ==== Proof.KI.MainValue.lean ====
/-
  The value of the whole program on the extended reals.

  After the degree region the column buffer holds the guarded scale of each row of the adjacency array; the host
  stretch multiplies row `j` of the features by entry `j` of that column; the layer region multiplies the adjacency
  array by the scaled features, scales row `i` of the product by entry `i` of the column, multiplies by the weights and
  clamps at zero. Composed, the result array holds the guarded-scale form of the layer, `Cert.GcnSpec.GK`, of the
  three launched arrays.
-/
import proofs.«179531_j47261820125198_2_alg».proof.Proof.KI.Main
import proofs.«179531_j47261820125198_2_alg».proof.Proof.KI.R0Value
import proofs.«179531_j47261820125198_2_alg».proof.Proof.KI.R1Value
import proofs.«179531_j47261820125198_2_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Value

open Idealize.ShloMosaic.ValueIdx

variable (m : (ℓ : Loc nD τ sig) → Buf (Elt Ideal) ℓ) (ρ : Dev nD → PrngReg)

/-- After the degree region the column buffer holds the guarded scales of the launched adjacency array. -/
theorem cDeg_main_v0 (c : Dev nD) :
    cDeg m ρ c (Proc.devRef .tc main_v0) = Cert.GcnSpec.scaleCol (m ((c : Thread nD τ).loc main_arg1)) :=
  (cDeg_arr m ρ c 1).trans (arr0_final (rLaunch m ρ) c)

theorem cScaled_main_v0 (c : Dev nD) :
    cScaled m ρ c (Proc.devRef .tc main_v0) = Cert.GcnSpec.scaleCol (m ((c : Thread nD τ).loc main_arg1)) :=
  (scaled_keeps m ρ c main_v0 (by decide) (by decide)).trans (cDeg_main_v0 m ρ c)

/-- The three buffers the host stretch reads and writes, as arrays of extended reals. -/
abbrev featBuf (c : Dev nD) : FVec Ideal S8192x128 .f32 := cDeg m ρ c (Proc.devRef .tc main_arg0)
abbrev colBuf (c : Dev nD) : FVec Ideal S8192x1 .f32 := cDeg m ρ c (Proc.devRef .tc main_v0)
abbrev scaledBuf (c : Dev nD) : FVec Ideal S8192x128 .f32 := cScaled m ρ c (Proc.devRef .tc main_v2)

/-- The host stretch leaves in its second buffer the features times the column of scales laid out along the rows. -/
theorem cScaled_main_v2 (c : Dev nD) :
    cScaled m ρ c (Proc.devRef .tc main_v2)
      = Cert.GcnSpec.scaledX (m ((c : Thread nD τ).loc main_arg0)) (m ((c : Thread nD τ).loc main_arg1)) := by
  have e : scaledBuf m ρ c
      = mulf (featBuf m ρ c) (broadcastInDim S8192x128 ![0, 1] bcast_S8192x1_S8192x128_0_1 (colBuf m ρ c)) := by
    show StableHlo.after hostOps1 (cDeg m ρ c) (Proc.devRef .tc main_v2) = _
    after_results
  have hcol : colBuf m ρ c = Cert.GcnSpec.scaleCol (m ((c : Thread nD τ).loc main_arg1)) := cDeg_main_v0 m ρ c
  have hfeat : featBuf m ρ c = m ((c : Thread nD τ).loc main_arg0) := cDeg_of_ne m ρ c main_arg0 (by decide)
  show scaledBuf m ρ c = _
  rw [e, hcol, hfeat]
  funext y
  show mulf _ _ y = _
  rw [mulf_apply]
  unfold Cert.GcnSpec.scaledX
  congr 1

/-- The result buffer after the whole run: the layer in its guarded-scale form, of the launched arrays. -/
theorem cOut_main_v3 (c : Dev nD) :
    cOut m ρ c (Proc.devRef .tc main_v3)
      = Cert.GcnSpec.GK (m ((c : Thread nD τ).loc main_arg0)) (m ((c : Thread nD τ).loc main_arg1))
          (m ((c : Thread nD τ).loc main_arg2)) := by
  refine (cOut_arr m ρ c 4).trans ((arr1_final (rScaled m ρ) c).trans ?_)
  rw [Cert.GcnSpec.GK_eq_layerOf]
  rw [show rScaled m ρ c main_v2 = _ from cScaled_main_v2 m ρ c,
    show rScaled m ρ c main_arg1 = _ from cScaled_main_arg1 m ρ c,
    show rScaled m ρ c main_v0 = _ from cScaled_main_v0 m ρ c,
    show rScaled m ρ c main_arg2 = _ from cScaled_main_arg2 m ρ c]

/-- THE VALUE of the kernel's program on the extended reals: every weakly fair execution terminates, the result
    array holds the guarded-scale form of the layer of the launched arrays, and the arguments are unchanged. -/
theorem run_value : θ_run defs (onTc (τ := τ) (main (F := Ideal))) ⟨m, fun _ => 0, ρ⟩ (fun r => ∀ c : Dev nD,
      r.2.mem ((c.tc : Thread nD τ).loc main_v3)
        = Cert.GcnSpec.GK (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_unscoped main_v3 (by decide))).trans (cOut_main_v3 m ρ c),
     (h c _ (mem_unscoped main_arg0 (by decide))).trans (cOut_main_arg0 m ρ c),
     (h c _ (mem_unscoped main_arg1 (by decide))).trans (cOut_main_arg1 m ρ c),
     (h c _ (mem_unscoped main_arg2 (by decide))).trans (cOut_main_arg2 m ρ c)⟩) (run_all m ρ)

end Value

end Cert.KernelIdeal.Hand

end
-- ==== Proof.RefValue.lean ====
/-
  The reference program's result, read index by index.

  The reference forms the row sums of the adjacency array, their square roots, the quotients
  `1 / √(row sum)`, lays that vector out once along the rows and once along the columns of an
  8192×8192 array, multiplies the adjacency array by both, then multiplies by the features and by the
  weights and clamps at zero.  Entry `(i, j)` of the doubly scaled array is
  `(scaleR A i · A i j) · scaleR A j`, so the result is the layer written through the normalised
  adjacency matrix, `Cert.GcnSpec.GR`.
-/
import proofs.«179531_j47261820125198_2_alg».proof.Proof.Gen.ReferenceIdeal.Run
import proofs.«179531_j47261820125198_2_alg».proof.Proof.Gen.ReferenceIdeal.Read
import proofs.«179531_j47261820125198_2_alg».proof.Proof.Spec

noncomputable section

namespace Cert.ReferenceIdeal.RefValue

open Cert.ReferenceIdeal Cert.ReferenceIdeal.Gen Cert.ReferenceIdeal.Read Idealize.ShloMosaic
  Idealize.ShloMosaic.TcCoe Idealize.SL.Sem Idealize.ShloMosaic.StableHlo Idealize.ShloMosaic.ValueIdx

/-- The word `0x3F800000` denotes the real number one: sign 0, exponent 127 (the bias), significand 0. -/
theorem ofBits_one : Ideal.ofBits .f32 0x3F800000#32 = 1 := by
  simp [Ideal.ofBits, Ideal.ieee, -EReal.coe_mul]; norm_num

/-- Entry `i` of the reference's scale vector is one over the square root of the degree of row `i`. -/
theorem scale_at (A : FVec Ideal S8192x8192 .f32) (i : Fin 8192) :
    val_main_v3 (F := Ideal) A (ix1 i) = Cert.GcnSpec.scaleR A i := by
  rw [val_main_v3_apply, val_main_v2_apply, val_main_cst_0_apply, val_main_v1_apply, val_main_v0_apply,
    val_main_cst_apply]
  simp only [Ideal.hostDivf_def, Ideal.hostUnary_sqrt_def, Ideal.ofBits_def]
  rw [ofBits_one, Ideal.ofBits_zero_f32, zero_add]
  unfold Cert.GcnSpec.scaleR Cert.GcnSpec.deg
  refine congrArg (fun s => Ideal.div 1 (Ideal.sqrt s)) (Finset.sum_congr rfl fun k _ => congrArg A ?_)
  exact funext fun a => Fin.ext (by match a with | ⟨0, _⟩ => rfl | ⟨1, _⟩ => rfl)

/-- Entry `(i, j)` of the doubly scaled adjacency array: the row's scale times the entry times the
    column's scale. -/
theorem normalised_at (A : FVec Ideal S8192x8192 .f32) (i j : Fin 8192) :
    val_main_v9 (F := Ideal) A (ix2 i j)
      = (Cert.GcnSpec.scaleR A i * A (ix2 i j)) * Cert.GcnSpec.scaleR A j := by
  have hrow : idx_main_v4 (idx_main_v5 (ix2 i j)) = ix1 i :=
    funext fun a => Fin.ext (by match a with | ⟨0, _⟩ => rfl)
  have hcol : idx_main_v7 (idx_main_v8 (ix2 i j)) = ix1 j :=
    funext fun a => Fin.ext (by match a with | ⟨0, _⟩ => rfl)
  rw [val_main_v9_apply, val_main_v6_apply, val_main_v5_apply, val_main_v4_apply, val_main_v8_apply,
    val_main_v7_apply, hrow, hcol, scale_at, scale_at]
  simp only [Ideal.mulf_def]

/-- Entry `(i, d)` of the normalised adjacency array times the features. -/
theorem aggregated_at (X : FVec Ideal S8192x128 .f32) (A : FVec Ideal S8192x8192 .f32) (i : Fin 8192) (d : Fin 128) :
    val_main_v10 (F := Ideal) X A (ix2 i d)
      = ∑ j : Fin 8192, ((Cert.GcnSpec.scaleR A i * A (ix2 i j)) * Cert.GcnSpec.scaleR A j) * X (ix2 j d) := by
  rw [val_main_v10_apply]
  refine Finset.sum_congr rfl fun k _ => ?_
  have hl : lidx_main_v10 (ix2 i d) k = ix2 i k :=
    funext fun a => Fin.ext (by match a with | ⟨0, _⟩ => rfl | ⟨1, _⟩ => rfl)
  have hr : ridx_main_v10 (ix2 i d) k = ix2 k d :=
    funext fun a => Fin.ext (by match a with | ⟨0, _⟩ => rfl | ⟨1, _⟩ => rfl)
  rw [hl, hr, normalised_at]

/-- Entry `(i, q)` of the product with the weights. -/
theorem projected_at (X : FVec Ideal S8192x128 .f32) (A : FVec Ideal S8192x8192 .f32) (W : FVec Ideal S128x64 .f32)
    (i : Fin 8192) (q : Fin 64) :
    val_main_v11 (F := Ideal) X A W (ix2 i q)
      = ∑ d : Fin 128, (∑ j : Fin 8192, ((Cert.GcnSpec.scaleR A i * A (ix2 i j)) * Cert.GcnSpec.scaleR A j) * X (ix2 j d))
          * W (ix2 d q) := by
  rw [val_main_v11_apply]
  refine Finset.sum_congr rfl fun k _ => ?_
  have hl : lidx_main_v11 (ix2 i q) k = ix2 i k :=
    funext fun a => Fin.ext (by match a with | ⟨0, _⟩ => rfl | ⟨1, _⟩ => rfl)
  have hr : ridx_main_v11 (ix2 i q) k = ix2 k q :=
    funext fun a => Fin.ext (by match a with | ⟨0, _⟩ => rfl | ⟨1, _⟩ => rfl)
  rw [hl, hr, aggregated_at]

/-- The reference's last stage is the layer through the normalised adjacency matrix. -/
theorem result_eq_GR (X : FVec Ideal S8192x128 .f32) (A : FVec Ideal S8192x8192 .f32) (W : FVec Ideal S128x64 .f32) :
    val_main_v12 (F := Ideal) X A W = Cert.GcnSpec.GR X A W := by
  funext y
  obtain ⟨p, q, rfl⟩ : ∃ (p : Fin 8192) (q : Fin 64), y = ix2 p q := ⟨y 0, y 1, eq_ix2 y⟩
  rw [val_main_v12_apply, projected_at, val_main_call0_v0_apply, val_main_call0_cst_apply]
  simp only [Ideal.maximumf_def, Ideal.ofBits_def, Ideal.ofBits_zero_f32]
  rfl

/-- Every weakly fair execution of the reference ends with its result array holding the layer through the
    normalised adjacency matrix of the three argument arrays, and the arguments unchanged. -/
theorem run_GR (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v12)
          = Cert.GcnSpec.GR
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans ((val_main_v12_eq _ _ _).trans (result_eq_GR _ _ _)), (h c).2⟩)
    (Cert.ReferenceIdeal.Value.run (F := Ideal) m' ρ')

end Cert.ReferenceIdeal.RefValue

end
-- ==== Proof.PreFacts.lean ====
/-
  What the printed precondition gives, in mathematical form.

  The precondition is the conjunction of four tests: every entry of the features, of the adjacency array
  and of the weights has absolute value below `+∞`, and every row sum of the adjacency array is above zero.
  On the extended reals `|x| < +∞` says that `x` is a real number (both infinities have absolute value
  `+∞`), so the first two tests make every entry of the features and of the adjacency array real; the
  fourth is the positivity of every degree.
-/
import proofs.«179531_j47261820125198_2_alg».proof.Pre_finite_inputs
import proofs.«179531_j47261820125198_2_alg».proof.Proof.Gen.Pre_finite_inputs
import proofs.«179531_j47261820125198_2_alg».proof.Proof.Spec
import Idealize.ShloMosaic.Lib.ReduceAll

noncomputable section

namespace Cert.GcnPre

open Idealize.ShloMosaic Idealize.ShloMosaic.ValueIdx Cert.Pre_finite_inputs

/-- The rank-zero shape has exactly one index. -/
instance : Subsingleton S_.Idx := ⟨fun a b => funext fun d => d.elim0⟩

/-- The word `0x7F800000` (sign 0, exponent all ones, significand 0) denotes `+∞`. -/
theorem ofBits_inf : Ideal.ofBits .f32 0x7F800000#32 = ⊤ := by
  simp [Ideal.ofBits, Ideal.ieee]

/-- A comparison "less than" that came out true is the order's `<`. -/
theorem lt_of_cmp_olt {a b : EReal} (h : Ideal.cmp .olt a b = 1#1) : a < b := by
  unfold Ideal.cmp at h
  by_contra hn
  simp [hn] at h

/-- A comparison "greater than" that came out true is the order's `>`. -/
theorem lt_of_cmp_ogt {a b : EReal} (h : Ideal.cmp .ogt a b = 1#1) : b < a := by
  unfold Ideal.cmp at h
  by_contra hn
  simp [hn] at h

/-- An extended real whose absolute value `max x (-x)` is below `+∞` is a real number: at `⊥` and at `⊤`
    the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One `jnp.all(|x| < +∞)` test that came out true makes every entry of the array a real number. -/
theorem real_of_all {s : Shape} {axes : List (Fin s.rank)} (X : FVec Ideal s .f32)
    (hb : S_.BroadcastsInDim s (![] : Fin 0 → Fin s.rank)) (hr : s.ReducesTo axes S_) (hu : 0 < S_.numel)
    (h : Host.reduce IntOp.andi
          (cmpf .olt (Host.absf X) (broadcastInDim s ![] hb (constant (F := Ideal) S_ .f32 0x7F800000#32)))
          (constantI S_ 1 1#1) hr hu ix0 = 1#1)
    (y : s.Idx) : ∃ r : ℝ, X y = (r : EReal) := by
  have e := Host.reduce_andi_all _ _ hr hu ix0 h y
  have e' : Ideal.cmp .olt (max (X y) (-(X y))) (Ideal.ofBits .f32 0x7F800000#32) = 1#1 := e
  rw [ofBits_inf] at e'
  exact real_of_abs_lt_top (X y) (lt_of_cmp_olt e')

/-- The host's row sum of the adjacency array from the zero word, at row `i`, is the degree of row `i`. -/
theorem rowsum_at (A : FVec Ideal S8192x8192 .f32) (hr : S8192x8192.ReducesTo [1] S8192) (hu : 0 < S_.numel)
    (i : Fin 8192) :
    Host.reduceAdd (F := Ideal) A (constant (F := Ideal) S_ .f32 0x00000000#32) hr hu (ix1 i) = Cert.GcnSpec.deg A i := by
  refine (Ideal.hostReduceAdd_single hr (by decide) A _ (ix1 i)).trans ?_
  show Ideal.ofBits .f32 0x00000000#32 + _ = _
  rw [Ideal.ofBits_zero_f32, zero_add]
  unfold Cert.GcnSpec.deg
  refine Finset.sum_congr rfl fun k _ => congrArg A ?_
  exact funext fun a => Fin.ext (by match a with | ⟨0, _⟩ => rfl | ⟨1, _⟩ => rfl)

/-- From the precondition: every entry of the features and of the adjacency array is a real number, and
    every degree is positive. -/
theorem pre_facts [Cert.Pre_finite_inputs.Facts] (X : FVec Ideal Cert.Pre_finite_inputs.S8192x128 .f32)
    (A : FVec Ideal Cert.Pre_finite_inputs.S8192x8192 .f32) (W : FVec Ideal Cert.Pre_finite_inputs.S128x64 .f32)
    (h : Cert.Pre_finite_inputs.fn (F := Ideal) X A W = fun _ => 1#1) :
    (∀ y, ∃ r : ℝ, X y = (r : EReal)) ∧ (∀ y, ∃ r : ℝ, A y = (r : EReal))
      ∧ (∀ i : Fin 8192, 0 < Cert.GcnSpec.deg A i) := by
  have h0 := congrFun h ix0
  dsimp only [fn, fn_part1] at h0
  obtain ⟨h123, h4⟩ := IntOp.andi_eq_one.1 h0
  obtain ⟨h12, _⟩ := IntOp.andi_eq_one.1 h123
  obtain ⟨h1, h2⟩ := IntOp.andi_eq_one.1 h12
  refine ⟨fun y => real_of_all X _ _ _ h1 y, fun y => real_of_all A _ _ _ h2 y, fun i => ?_⟩
  have e := Host.reduce_andi_all _ _ _ _ ix0 h4 (ix1 i)
  have e' : Ideal.cmp .ogt
      (Host.reduceAdd (F := Ideal) A (constant (F := Ideal) S_ .f32 0x00000000#32)
        Facts.reducesTo_S8192x8192_S8192_d1 Facts.h_S_ (ix1 i))
      (Ideal.ofBits .f32 0x00000000#32) = 1#1 := e
  rw [rowsum_at, Ideal.ofBits_zero_f32] at e'
  exact lt_of_cmp_ogt e'

end Cert.GcnPre

end
-- ==== Proof.SpecLaw.lean ====
/-
  The two arrangements of the graph-convolution layer agree where the data are real and the degrees positive.

  Where every entry of `A` is a real number, the degree of row `i` is a real number `r i`; where it is
  positive, the guarded reciprocal square root and the quotient `1 / √(r i)` are the same positive real
  `s i = (√(r i))⁻¹`.  With every entry of `X` real as well, entry `(i, d)` of both arrangements is a finite
  sum of products of reals, and

      (∑ j, A i j · (X j d · s j)) · s i  =  ∑ j, ((s i · A i j) · s j) · X j d

  by distributivity and commutativity of the real numbers.  The product with `W` and the clamp at zero are
  then applied to equal arrays, so `W` needs no hypothesis.
-/
import proofs.«179531_j47261820125198_2_alg».proof.Proof.Spec

noncomputable section

namespace Cert.GcnLaw

open Idealize.ShloMosaic Idealize.ShloMosaic.ValueIdx Cert.GcnSpec

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: scaling the summands' second factor by `t j` and the sum by `c` is scaling
    each coefficient `a j` by `c` on the left and `t j` on the right. -/
theorem law_real {ι : Type*} (s : Finset ι) (a x t : ι → ℝ) (c : ℝ) :
    (∑ j ∈ s, a j * (x j * t j)) * c = ∑ j ∈ s, ((c * a j) * t j) * x j := by
  rw [Finset.sum_mul]
  exact Finset.sum_congr rfl fun j _ => by ring

/-- The same law for real numbers read as extended reals. -/
theorem law_ereal {ι : Type*} (s : Finset ι) (a x t : ι → ℝ) (c : ℝ) :
    (∑ j ∈ s, (a j : EReal) * ((x j : EReal) * (t j : EReal))) * (c : EReal)
      = ∑ j ∈ s, (((c : EReal) * (a j : EReal)) * (t j : EReal)) * (x j : EReal) := by
  simp only [← EReal.coe_mul, ← coe_sum]
  exact congrArg _ (law_real s a x t c)

/-- Where the degree is a positive real `r`, the guarded scale is `(√r)⁻¹`. -/
theorem scaleK_of_pos (A : SA.Idx → EReal) (i : Fin 8192) (r : ℝ) (hr : deg A i = (r : EReal)) (hpos : 0 < r) :
    scaleK A i = (((Real.sqrt r)⁻¹ : ℝ) : EReal) := by
  unfold scaleK
  rw [hr]
  have hc : Ideal.cmp .ogt (r : EReal) 0 = 1#1 := by
    unfold Ideal.cmp
    simp [EReal.coe_pos.2 hpos]
  rw [hc, select_one, Ideal.rsqrt_coe, if_neg (not_lt.2 hpos.le), if_neg hpos.ne']

/-- Where the degree is a positive real `r`, the unguarded scale `1 / √r` is `(√r)⁻¹` too. -/
theorem scaleR_of_pos (A : SA.Idx → EReal) (i : Fin 8192) (r : ℝ) (hr : deg A i = (r : EReal)) (hpos : 0 < r) :
    scaleR A i = (((Real.sqrt r)⁻¹ : ℝ) : EReal) := by
  unfold scaleR
  rw [hr, Ideal.sqrt_coe, if_neg (not_lt.2 hpos.le), Ideal.div_coe (Real.sqrt_pos.2 hpos).ne', one_mul, one_div]

/-- Where every entry of the features and of the adjacency array is a real number and every degree is
    positive, the layer computed with the guarded scales is the layer through the normalised adjacency matrix. -/
theorem GK_eq_GR (X : SX.Idx → EReal) (A : SA.Idx → EReal) (W : SW.Idx → EReal)
    (hX : ∀ y, ∃ r : ℝ, X y = (r : EReal)) (hA : ∀ y, ∃ r : ℝ, A y = (r : EReal))
    (hdeg : ∀ i : Fin 8192, 0 < Cert.GcnSpec.deg A i) :
    Cert.GcnSpec.GK X A W = Cert.GcnSpec.GR X A W := by
  choose x hx using hX
  choose a ha using hA
  -- the degrees are real, and positive
  have hr : ∀ i : Fin 8192, deg A i = ((∑ j : Fin 8192, a (ix2 i j) : ℝ) : EReal) := fun i => by
    unfold deg
    rw [coe_sum]
    exact Finset.sum_congr rfl fun j _ => ha _
  have hpos : ∀ i : Fin 8192, 0 < ∑ j : Fin 8192, a (ix2 i j) := fun i => by
    have := hdeg i
    rw [hr i] at this
    exact EReal.coe_pos.1 this
  -- the common scale
  have hK : ∀ i : Fin 8192, scaleK A i = (((Real.sqrt (∑ j : Fin 8192, a (ix2 i j)))⁻¹ : ℝ) : EReal) :=
    fun i => scaleK_of_pos A i _ (hr i) (hpos i)
  have hR : ∀ i : Fin 8192, scaleR A i = (((Real.sqrt (∑ j : Fin 8192, a (ix2 i j)))⁻¹ : ℝ) : EReal) :=
    fun i => scaleR_of_pos A i _ (hr i) (hpos i)
  funext y
  obtain ⟨p, q, rfl⟩ : ∃ (p : Fin 8192) (q : Fin 64), y = ix2 p q := ⟨y 0, y 1, eq_ix2 y⟩
  show max (∑ d : Fin 128, (accK X A p d * scaleK A p) * W (ix2 d q)) 0
    = max (∑ d : Fin 128,
        (∑ j : Fin 8192, ((scaleR A p * A (ix2 p j)) * scaleR A j) * X (ix2 j d)) * W (ix2 d q)) 0
  refine congrArg (max · 0) (Finset.sum_congr rfl fun d _ => congrArg (· * W (ix2 d q)) ?_)
  unfold accK
  simp only [hK, hR, ha, hx]
  exact law_ereal Finset.univ (fun j => a (ix2 p j)) (fun j => x (ix2 j d))
    (fun j => (Real.sqrt (∑ l : Fin 8192, a (ix2 j l)))⁻¹) ((Real.sqrt (∑ l : Fin 8192, a (ix2 p l)))⁻¹)

end Cert.GcnLaw

end
-- ==== Proof.lean ====
/-
  A graph-convolution layer, `relu((D^{-1/2} A D^{-1/2}) X W)` with `D` the diagonal of the row sums of `A`, computed two
  ways on A : f32[8192, 8192], X : f32[8192, 128], W : f32[128, 64].

  One program makes two passes over `A`. The first sums each row (two column blocks per row block, accumulated) and
  ends with the GUARDED reciprocal square root of the sum: `rsqrt` where the sum is positive, zero elsewhere. The rows
  of `X` are then scaled by it, and the second pass accumulates `A` times the scaled features over four column blocks,
  scales row `i` of the product by the same quantity, multiplies by `W` and clamps at zero. The other program forms
  `1 / sqrt` of each row sum, the normalised matrix `(s_i · A_ij) · s_j`, and multiplies by `X` and by `W`.

  On the extended reals the guard matters exactly where a row sum is not positive: at a row of sum zero with a nonzero
  entry the quotient `1 / sqrt 0` is infinite while the guarded scale is zero. The statement therefore assumes,
  beside finite inputs, that every row sum of `A` is positive — the domain of the reference's negative power. There
  both scales are the same positive real `s_i`, every entry is real, and
  `s_i · ∑_j A_ij (X_jd s_j) = ∑_j ((s_i A_ij) s_j) X_jd` by distributivity.

  The five claims: each program runs to the end leaving its arguments unchanged (the two kernel programs through one
  run of @main's three segments, the reference through its run read back); the idealization rewrote nothing; and at
  the extended reals both programs' results are the same function of the arguments.
-/
import proofs.«179531_j47261820125198_2_alg».proof.Defs
import proofs.«179531_j47261820125198_2_alg».proof.Proof.Gen.Kernel
import proofs.«179531_j47261820125198_2_alg».proof.Proof.Gen.KernelIdeal
import proofs.«179531_j47261820125198_2_alg».proof.Proof.Gen.ReferenceIdeal
import proofs.«179531_j47261820125198_2_alg».proof.Proof.Gen.Pre_finite_inputs
import proofs.«179531_j47261820125198_2_alg».proof.Proof.K.Main
import proofs.«179531_j47261820125198_2_alg».proof.Proof.KI.MainValue
import proofs.«179531_j47261820125198_2_alg».proof.Proof.RefValue
import proofs.«179531_j47261820125198_2_alg».proof.Proof.PreFacts
import proofs.«179531_j47261820125198_2_alg».proof.Proof.SpecLaw
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hRI : Cert.ReferenceIdeal.Facts]
  [hPre : Cert.Pre_finite_inputs.Facts]

/-- The word-level program runs to the end and leaves its arguments unchanged: the run of its three segments, read
    at the argument arrays. No hypothesis on the inputs is used. -/
theorem frame_kernel : Cert.frame_Kernel := fun m ρ _ => Cert.Kernel.Hand.frame (F := Bits) m ρ

/-- The same run of the same text at the extended reals. -/
theorem frame_kernel_ideal : Cert.frame_KernelIdeal := fun m ρ _ => Cert.KernelIdeal.Hand.frame (F := Ideal) m ρ

/-- The reference's run, with its result dropped. -/
theorem frame_reference_ideal : Cert.frame_ReferenceIdeal := fun m ρ _ =>
  (θ_run Cert.ReferenceIdeal.defs _ _).mono (fun _ h c => (h c).2) (Cert.ReferenceIdeal.RefValue.run_GR m ρ)

/-- From memories agreeing on the arguments both programs end with the same result array: the kernel's run ends at the
    guarded-scale form of the layer, the reference's at the normalised-matrix form, and under the precondition —
    every entry of `X` and `A` real, every row sum of `A` positive — the two forms are one function. -/
theorem algebraic : Cert.algebraic_KernelIdeal_ReferenceIdeal := by
  intro m ρ m' ρ' hpre hagree
  refine ⟨fun c => Cert.GcnSpec.GK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.RefValue.run_GR m' ρ')
  rw [(hagree c).1, (hagree c).2.1, (hagree c).2.2]
  obtain ⟨hX, hA, hdeg⟩ := Cert.GcnPre.pre_facts _ _ _ (hpre c)
  exact (Cert.GcnLaw.GK_eq_GR _ _ _ hX hA hdeg).symm

end Claims

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
